-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x20 : Shape := ⟨2, ![128, 20]⟩
abbrev S20 : Shape := ⟨1, ![20]⟩
abbrev S20x32 : Shape := ⟨2, ![20, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x32 : S_.BroadcastsInDim S20x32 (![] : Fin 0 → Fin S20x32.rank)
  reducesTo_S20x32_S_d0_1 : S20x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S20x32 .f32) (main_arg6 : FVec F S32 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x32 .f32 := Host.absf main_arg5
  let main_cst_6 : FVec F S_ .f32 := constant S_ .f32 0x7F800000#32
  let main_v20 : FVec F S20x32 .f32 := broadcastInDim S20x32 ![] bcast_S_S20x32 main_cst_6
  let main_v21 : IVec S20x32 1 := cmpf .olt main_v19 main_v20
  let main_c_7 : IVec S_ 1 := constantI S_ 1 1#1
  let main_v22 : IVec S_ 1 := (fun x v => Host.reduce IntOp.andi x v reducesTo_S20x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x20 .f32) (main_arg4 : FVec F S20 .f32) (main_arg5 : FVec F S20x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x20 .f32 := Host.absf main_arg3
  let main_cst_2 : FVec F S_ .f32 := constant S_ .f32 0x7F800000#32
  let main_v10 : FVec F S128x20 .f32 := broadcastInDim S128x20 ![] bcast_S_S128x20 main_cst_2
  let main_v11 : IVec S128x20 1 := cmpf .olt main_v9 main_v10
  let main_c_3 : IVec S_ 1 := constantI S_ 1 1#1
  let main_v12 : IVec S_ 1 := (fun x v => Host.reduce IntOp.andi x v reducesTo_S128x20_S_d0_1 h_S_) main_v11 main_c_3
  let main_v13 : IVec S_ 1 := andi main_v8 main_v12
  let main_v14 : FVec F S20 .f32 := Host.absf main_arg4
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x20 : Shape := ⟨2, ![128, 20]⟩
abbrev S20 : Shape := ⟨1, ![20]⟩
abbrev S20x32 : Shape := ⟨2, ![20, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x20 : Shape := ⟨2, ![100000, 20]⟩
abbrev S4000x128 : Shape := ⟨2, ![4000, 128]⟩
abbrev S4000x1 : Shape := ⟨2, ![4000, 1]⟩
abbrev S4000x20 : Shape := ⟨2, ![4000, 20]⟩
abbrev S3300000x20 : Shape := ⟨2, ![3300000, 20]⟩
abbrev S1x20 : Shape := ⟨2, ![1, 20]⟩
abbrev S100000x32 : Shape := ⟨2, ![100000, 32]⟩
abbrev S4000x32 : Shape := ⟨2, ![4000, 32]⟩
abbrev S3300000x32 : Shape := ⟨2, ![3300000, 32]⟩
abbrev S1x32 : Shape := ⟨2, ![1, 32]⟩
abbrev S4000 : Shape := ⟨1, ![4000]⟩

abbrev nBuf : Space → Nat
  | .hbm => 67
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x20, .f32⟩
  | .hbm, ⟨4, _⟩ => ⟨S20, .f32⟩
  | .hbm, ⟨5, _⟩ => ⟨S20x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x20, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x20, .f32⟩
  | .hbm, ⟨40, _⟩ => ⟨S3300000x1, .f32⟩
  | .hbm, ⟨41, _⟩ => ⟨S3300000x20, .f32⟩
  | .hbm, ⟨42, _⟩ => ⟨S3300000x20, .f32⟩
  | .hbm, ⟨43, _⟩ => ⟨S_, .f32⟩
  | .hbm, ⟨44, _⟩ => ⟨S100000x20, .f32⟩
  | .hbm, ⟨45, _⟩ => ⟨S3300000x1, .i32⟩
  | .hbm, ⟨46, _⟩ => ⟨S100000x20, .f32⟩
  | .hbm, ⟨47, _⟩ => ⟨S1x20, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S128x20, .f32⟩
  | .local _ .vmem, ⟨3, _⟩ => ⟨S4000x1, .f32⟩
  | .local _ .vmem, ⟨4, _⟩ => ⟨S4000x1, .f32⟩
  | .local _ .vmem, ⟨5, _⟩ => ⟨S4000x20, .f32⟩
  | .local _ .vmem, ⟨6, _⟩ => ⟨S4000x20, .f32⟩
  | .local _ .vmem, ⟨7, _⟩ => ⟨S4000x20, .f32⟩
  | .local _ .vmem, ⟨8, _⟩ => ⟨S4000x20, .f32⟩
  | .local _ .vmem, ⟨9, _⟩ => ⟨S4000x1, .f32⟩
  | .local _ .vmem, ⟨10, _⟩ => ⟨S4000x1, .f32⟩
  | .local _ .vmem, ⟨11, _⟩ => ⟨S1x20, .f32⟩
  | .local _ .vmem, ⟨12, _⟩ => ⟨S20x32, .f32⟩
  | .local _ .vmem, ⟨13, _⟩ => ⟨S4000x32, .f32⟩
  | .local _ .vmem, ⟨14, _⟩ => ⟨S4000x32, .f32⟩
  | .local _ .vmem, ⟨15, _⟩ => ⟨S4000x32, .f32⟩
  | .local _ .vmem, ⟨16, _⟩ => ⟨S4000x32, .f32⟩
  | .local _ .vmem, ⟨17, _⟩ => ⟨S4000x1, .f32⟩
  | .local _ .vmem, ⟨18, _⟩ => ⟨S4000x1, .f32⟩
  | .local _ .vmem, ⟨19, _⟩ => ⟨S1x32, .f32⟩
  | .local _ .vmem, ⟨20, _⟩ => ⟨S4000x32, .f32⟩
  | .local _ .vmem, ⟨21, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S20x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x20_S128x20_0_0 : ∀ a, (![0, 0] : Fin 2 → Nat) a + S128x20.size a ≤ S128x20.size a
  h_S128x20 : 0 < S128x20.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x20 : S4000x1.Broadcasts S4000x20
  inb_S4000x20_S4000x20_0_0 : ∀ a, (![0, 0] : Fin 2 → Nat) a + S4000x20.size a ≤ S4000x20.size a
  h_S4000x20 : 0 < S4000x20.numel
  bcast_S_S3300000 : S_.BroadcastsInDim S3300000 (![] : Fin 0 → Fin S3300000.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  shapeCasts_S20_S1x20 : S20.ShapeCasts S1x20
  shapeCasts_S4000x20_S4000x20 : S4000x20.ShapeCasts S4000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4000x20 : S1x20.Broadcasts S4000x20
  inb_S20x32_S20x32_0_0 : ∀ a, (![0, 0] : Fin 2 → Nat) a + S20x32.size a ≤ S20x32.size a
  h_S20x32 : 0 < S20x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  reduces_S4000x32_S4000 : S4000x32.Reduces [1] S4000
  shapeCasts_S4000_S4000x1 : S4000.ShapeCasts S4000x1
  scatter_S100000_S3300000x1_S3300000_n_0_0_1_wf : ScatterDims.WF S100000 S3300000x1 S3300000 [] [0] [0] 1
  dot_S4000x128_S128x20_S4000x20_1_0_0_1_n_n_wf : DotDims.WF S4000x128 S128x20 S4000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  dot_S4000x20_S20x32_S4000x32_1_0_0_1_n_n_wf : DotDims.WF S4000x20 S20x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x20.size a ≤ S128x20.size a
  hwx0_1 : ∀ i : grid0.Coords, EltTy.bits .f32 = 32 ∨ (Rect.block (s := S128x20) S128x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x20.size a ≤ S100000x20.size a
  hwx0_3 : ∀ i : grid0.Coords, EltTy.bits .f32 = 32 ∨ (Rect.block (s := S100000x20) S4000x20.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x20.size a ≤ S100000x20.size a
  hwx1_0 : ∀ i : grid1.Coords, EltTy.bits .f32 = 32 ∨ (Rect.block (s := S100000x20) S4000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x32.size a ≤ S20x32.size a
  hwx1_3 : ∀ i : grid1.Coords, EltTy.bits .f32 = 32 ∨ (Rect.block (s := S20x32) S20x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .f32 = 32 ∨ (Rect.block (s := S100000x32) S4000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x32.size a ≤ S100000x32.size a
  hwx2_3 : ∀ i : grid2.Coords, EltTy.bits .f32 = 32 ∨ (Rect.block (s := S100000x32) S4000x32.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x128_S128x20_S4000x20_1_0_0_1_n_n : DotDims S4000x128 S128x20 S4000x20 where
  lhsContracting := [1]
  rhsContracting := [0]
  lhsNonContracting := [0]
  rhsNonContracting := [1]
  lhsBatch := []
  rhsBatch := []
  wf := dot_S4000x128_S128x20_S4000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf
def dot_S4000x20_S20x32_S4000x32_1_0_0_1_n_n : DotDims S4000x20 S20x32 S4000x32 where
  lhsContracting := [1]
  rhsContracting := [0]
  lhsNonContracting := [0]
  rhsNonContracting := [1]
  lhsBatch := []
  rhsBatch := []
  wf := dot_S4000x20_S20x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4000x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S4000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S20x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S4000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x20 : Shape := ⟨2, ![128, 20]⟩
abbrev S20 : Shape := ⟨1, ![20]⟩
abbrev S20x32 : Shape := ⟨2, ![20, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x20 : Shape := ⟨2, ![100000, 20]⟩
abbrev S3300000x20 : Shape := ⟨2, ![3300000, 20]⟩
abbrev S1x20 : Shape := ⟨2, ![1, 20]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x20, .f32⟩
  | .hbm, ⟨4, _⟩ => ⟨S20, .f32⟩
  | .hbm, ⟨5, _⟩ => ⟨S20x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x20, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x20, .f32⟩
  | .hbm, ⟨59, _⟩ => ⟨S3300000x1, .f32⟩
  | .hbm, ⟨60, _⟩ => ⟨S3300000x20, .f32⟩
  | .hbm, ⟨61, _⟩ => ⟨S3300000x20, .f32⟩
  | .hbm, ⟨62, _⟩ => ⟨S_, .f32⟩
  | .hbm, ⟨63, _⟩ => ⟨S100000x20, .f32⟩
  | .hbm, ⟨64, _⟩ => ⟨S3300000x1, .i32⟩
  | .hbm, ⟨65, _⟩ => ⟨S100000x20, .f32⟩
  | .hbm, ⟨66, _⟩ => ⟨S1x20, .f32⟩
  | .hbm, ⟨67, _⟩ => ⟨S100000x20, .f32⟩
  | .hbm, ⟨68, _⟩ => ⟨S100000x20, .f32⟩
  | .hbm, ⟨69, _⟩ => ⟨S_, .f32⟩
  | .hbm, ⟨70, _⟩ => ⟨S100000x20, .f32⟩
  | .hbm, ⟨71, _⟩ => ⟨S100000x20, .f32⟩
  | .hbm, ⟨72, _⟩ => ⟨S100000x32, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x32, .f32⟩
  | .hbm, ⟨82, _⟩ => ⟨S3300000x1, .f32⟩
  | .hbm, ⟨83, _⟩ => ⟨S3300000x32, .f32⟩
  | .hbm, ⟨84, _⟩ => ⟨S3300000x32, .f32⟩
  | .hbm, ⟨85, _⟩ => ⟨S_, .f32⟩
  | .hbm, ⟨86, _⟩ => ⟨S100000x32, .f32⟩
  | .hbm, ⟨87, _⟩ => ⟨S3300000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .hbm, ⟨92, _⟩ => ⟨S_, .f32⟩
  | .hbm, ⟨93, _⟩ => ⟨S100000x32, .f32⟩
  | .hbm, ⟨94, _⟩ => ⟨S100000x32, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x32, .f32⟩
  | .hbm, ⟨102, _⟩ => ⟨S100000x32, .f32⟩
  | .hbm, ⟨103, _⟩ => ⟨S100000x32, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x32, .f32⟩
  | .hbm, ⟨109, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_v67 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v68 : Ref sig .tc := ⟨.hbm, 109, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x20_S100000x20_1_0_0_1_n_n_wf : DotDims.WF S100000x128 S128x20 S100000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  dot_S100000x20_S20x32_S100000x32_1_0_0_1_n_n_wf : DotDims.WF S100000x20 S20x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf
def dot_S100000x20_S20x32_S100000x32_1_0_0_1_n_n : DotDims S100000x20 S20x32 S100000x32 where
  lhsContracting := [1]
  rhsContracting := [0]
  lhsNonContracting := [0]
  rhsNonContracting := [1]
  lhsBatch := []
  rhsBatch := []
  wf := dot_S100000x20_S20x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KernelRun.lean ====
/-
  The idealized kernel's run with its result named.  The program is three pipelined regions among stretches of host
  operations; its buffers' contents at each boundary are a fold from the launch memory (the generated frame's W0 ... W8).
  After the last region every unscoped buffer holds the last boundary's contents, so the result buffer ends at W8's
  value there and each argument ends as launched.  Every weakly fair execution terminates in such a state.
-/
import proofs.«160353_j23304492548303_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOpsB.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Region0.lean ====
/-
  Region 0 of the idealized kernel as one function of its arrays.  The grid has 25 points; point t reads rows
  4000 t ... 4000 t + 3999 of the node table x : [100000, 128] and of the column d : [100000, 1], the whole weight
  matrix w : [128, 20], and writes rows 4000 t ... of the result.  The body multiplies its block of x by w on the matrix
  unit into a zero accumulator and scales each row by that row's entry of d, so entry (n, j) of the result is
      (Σ_k x(n, k) · w(k, j)) · d(n, 0).
  The 25 row blocks tile the result, hence the whole array ends at that function.
-/
import proofs.«160353_j23304492548303_2_alg».proof.Proof.Gen.KernelIdeal.Frame
import proofs.«160353_j23304492548303_2_alg».proof.Proof.LibMatmulZero
import proofs.«160353_j23304492548303_2_alg».proof.Proof.LibRowOpsB
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, however they are spelt. -/
theorem hz2 : (![0, 0] : Fin 2 → Nat) = fun _ => 0 := funext fun a => by fin_cases a <;> rfl

/-- Entry (n, j): the product's entry scaled by row n's factor. -/
def scaledProduct (x : FVec Ideal S100000x128 .f32) (w : FVec Ideal S128x20 .f32) (d : FVec Ideal S100000x1 .f32) :
    FVec Ideal S100000x20 .f32 :=
  fun i => (∑ k : Fin 128, x (ix2 (i 0) k) * w (ix2 k (i 1))) * d (ix2 (i 0) (0 : Fin 1))

/-- The result's axis 0 is the left operand's axis 0 ... -/
theorem dot0_l0 : ∀ (i : (⟨2, ![4000, 20]⟩ : Shape).Idx) (c : dot_S4000x128_S128x20_S4000x20_1_0_0_1_n_n.contr.Idx),
    (dot_S4000x128_S128x20_S4000x20_1_0_0_1_n_n.lhsIdx i c 0).val = (i 0).val := fun i c => by
  unfold DotDims.lhsIdx
  rw [dif_neg (show ¬(0 : Fin _) ∈ dot_S4000x128_S128x20_S4000x20_1_0_0_1_n_n.lhsBatch by decide),
    dif_pos (show (0 : Fin _) ∈ dot_S4000x128_S128x20_S4000x20_1_0_0_1_n_n.lhsNonContracting by decide)]
  rfl
/-- ... and its axis 1 the right operand's axis 1. -/
theorem dot0_r1 : ∀ (i : (⟨2, ![4000, 20]⟩ : Shape).Idx) (c : dot_S4000x128_S128x20_S4000x20_1_0_0_1_n_n.contr.Idx),
    (dot_S4000x128_S128x20_S4000x20_1_0_0_1_n_n.rhsIdx i c 1).val = (i 1).val := fun i c => by
  unfold DotDims.rhsIdx
  rw [dif_neg (show ¬(1 : Fin _) ∈ dot_S4000x128_S128x20_S4000x20_1_0_0_1_n_n.rhsBatch by decide),
    dif_pos (show (1 : Fin _) ∈ dot_S4000x128_S128x20_S4000x20_1_0_0_1_n_n.rhsNonContracting by decide)]
  rfl

/-- The body's stored value at block entry (p, q): the block product's entry scaled by block row p's factor. -/
theorem pay0_apply (x0 : Vec Ideal S4000x128 .f32) (x1 : Vec Ideal S128x20 .f32) (x2 : Vec Ideal S4000x1 .f32)
    (p : Fin 4000) (q : Fin 20) :
    k0_pay1 x0 x1 x2 (ix2 p q) = (∑ k : Fin 128, x0 (ix2 p k) * x1 (ix2 k q)) * x2 (ix2 p (0 : Fin 1)) := by
  unfold k0_pay1
  show (matmul (F := Ideal) dot_S4000x128_S128x20_S4000x20_1_0_0_1_n_n none (truncf (F := Ideal) .bf16 x0 bitsLt_bf16_f32)
        (truncf (F := Ideal) .bf16 x1 bitsLt_bf16_f32) (constant (F := Ideal) S4000x20 .f32 0x00000000#32)) (ix2 p q)
      * (broadcastTo S4000x20 (shapeCast S4000x1 x2 shapeCasts_S4000x1_S4000x1) broadcasts_S4000x1_S4000x20) (ix2 p q) = _
  rw [Cert.LibMatmulZero.matmul_zero_ix2 dot_S4000x128_S128x20_S4000x20_1_0_0_1_n_n rfl rfl rfl rfl dot0_l0 dot0_r1,
    Cert.LibRowOps.broadcastTo_a1_ab_apply, shapeCast_self]
  rfl

/-- One grid point: if the three loaded blocks are the arrays read at rows T·4000 + (block row), the stored block entry
    y is the whole-array function at the array entry i that y sits at. -/
theorem point0 (x0 : Vec Ideal S4000x128 .f32) (x1 : Vec Ideal S128x20 .f32) (x2 : Vec Ideal S4000x1 .f32)
    (A0 : FVec Ideal S100000x128 .f32) (A1 : FVec Ideal S128x20 .f32) (A2 : FVec Ideal S100000x1 .f32)
    (y : S4000x20.Idx) (i : S100000x20.Idx) (T : Nat)
    (hi0 : (i 0).val = T * 4000 + (y 0).val) (hi1 : (i 1).val = (y 1).val)
    (h0 : ∀ (a : S4000x128.Idx) (b : S100000x128.Idx), (b 0).val = T * 4000 + (a 0).val → (b 1).val = (a 1).val → x0 a = A0 b)
    (h1 : ∀ a : S128x20.Idx, x1 a = A1 a)
    (h2 : ∀ (a : S4000x1.Idx) (b : S100000x1.Idx), (b 0).val = T * 4000 + (a 0).val → x2 a = A2 b) :
    k0_pay1 x0 x1 x2 y = scaledProduct A0 A1 A2 i := by
  obtain ⟨p, q, rfl⟩ : ∃ (p : Fin 4000) (q : Fin 20), y = ix2 p q := ⟨y 0, y 1, eq_ix2 y⟩
  rw [pay0_apply]
  unfold scaledProduct
  have hq : (⟨q.val, q.isLt⟩ : Fin 20) = i 1 := Fin.ext hi1.symm
  refine congrArg₂ (· * ·) (Finset.sum_congr rfl fun k _ => congrArg₂ (· * ·) ?_ ?_) ?_
  · exact h0 _ _ hi0 rfl
  · rw [h1]; exact congrArg A1 (funext fun a => Fin.ext (by match a with | ⟨0, _⟩ => rfl | ⟨1, _⟩ => exact hi1.symm))
  · exact h2 _ _ hi0

section
variable (V : (c : Dev nD) → (b : Ref sig .tc) → Buf (Elt Ideal) ((c : Thread nD τ).loc b))

/-- The windows' block indices over the grid: the row-blocked windows move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the scaled product of the arrays as the region finds them. -/
theorem flushed0 (c : Dev nD) (t : Fin cfg0.N) :
    (dat0 V c).flushed 3 t = ((cfg0.win 3).blk t).view.read (Elt Ideal)
      (scaledProduct (V c main_arg0) (V c main_arg3) (V c main_v16)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x20) hz2, View.ld_unit_zero (S := S4000x1) hz2]
  obtain ⟨e00, e01, e10, e11, e20, e21, e30, e31⟩ := idx0 t
  funext y
  refine point0 (iblk0 V c 0 t) (iblk0 V c 1 t) (iblk0 V c 2 t) (V c main_arg0) (V c main_arg3) (V c main_v16)
    y (((cfg0.win 3).blk t).view.emb y) t.val ?_ ?_ ?_ ?_ ?_
  · show win0_3.index t (0 : Fin 2) * 4000 + 1 * (y 0).val = t.val * 4000 + (y 0).val
    rw [e30]; omega
  · show win0_3.index t (1 : Fin 2) * 20 + 1 * (y 1).val = (y 1).val
    rw [e31]; omega
  · intro a b hb0 hb1
    show V c main_arg0 (((cfg0.win 0).blk t).view.emb a) = V c main_arg0 b
    refine congrArg (V c main_arg0) (funext fun ax => Fin.ext ?_)
    match ax with
    | ⟨0, _⟩ => show win0_0.index t (0 : Fin 2) * 4000 + 1 * (a 0).val = (b 0).val; rw [e00, hb0]; omega
    | ⟨1, _⟩ => show win0_0.index t (1 : Fin 2) * 128 + 1 * (a 1).val = (b 1).val; rw [e01, hb1]; omega
  · intro a
    show V c main_arg3 (((cfg0.win 1).blk t).view.emb a) = V c main_arg3 a
    refine congrArg (V c main_arg3) (funext fun ax => Fin.ext ?_)
    match ax with
    | ⟨0, _⟩ => show win0_1.index t (0 : Fin 2) * 128 + 1 * (a 0).val = (a 0).val; rw [e10]; omega
    | ⟨1, _⟩ => show win0_1.index t (1 : Fin 2) * 20 + 1 * (a 1).val = (a 1).val; rw [e11]; omega
  · intro a b hb0
    show V c main_v16 (((cfg0.win 2).blk t).view.emb a) = V c main_v16 b
    refine congrArg (V c main_v16) (funext fun ax => Fin.ext ?_)
    match ax with
    | ⟨0, _⟩ => show win0_2.index t (0 : Fin 2) * 4000 + 1 * (a 0).val = (b 0).val; rw [e20, hb0]; omega
    | ⟨1, _⟩ =>
      show win0_2.index t (1 : Fin 2) * 1 + 1 * (a 1).val = (b 1).val
      have ha : (a 1).val < 1 := (a 1).isLt
      have hb : (b 1).val < 1 := (b 1).isLt
      rw [e21]; omega

/-- An index of the result is in point t's block iff each coordinate is in the block's range on its axis. -/
theorem mem_blk0 (t : Fin cfg0.N) (i : S100000x20.Idx) :
    i ∈ ((cfg0.win 3).blk t).view.set ↔ ∀ a : Fin 2, win0_3.index t a * S4000x20.size a ≤ (i a).val
      ∧ (i a).val < win0_3.index t a * S4000x20.size a + S4000x20.size a := by
  show i ∈ ((View.whole main_v17).slice (win0_3.rect t)).set ↔ _
  rw [View.set_slice_whole, Rect.mem_set_unit]
  exact Iff.rfl

/-- THE ARRAY after the region: the scaled product of the arrays the region found (row n is in block n / 4000). -/
theorem final0 (c : Dev nD) : (dat0 V c).arrAt 3 cfg0.N
    = scaledProduct (V c main_arg0) (V c main_arg3) (V c main_v16) :=
  (dat0 V c).arrAt_eq_of_cover 3 _ (fun t _ => flushed0 V c t) fun i => by
    have hi0 : (i 0).val < 100000 := (i 0).isLt
    have hi1 : (i 1).val < 20 := (i 1).isLt
    have hN : cfg0.N = 25 := N_0
    refine ⟨⟨(i 0).val / 4000, by rw [hN]; omega⟩, flush0_3 _, ?_⟩
    rw [mem_blk0]
    obtain ⟨-, -, -, -, -, -, e30, e31⟩ := idx0 ⟨(i 0).val / 4000, by rw [hN]; omega⟩
    intro a
    match a with
    | ⟨0, _⟩ =>
      show win0_3.index _ (0 : Fin 2) * 4000 ≤ (i 0).val ∧ (i 0).val < win0_3.index _ (0 : Fin 2) * 4000 + 4000
      rw [e30]; show (i 0).val / 4000 * 4000 ≤ (i 0).val ∧ (i 0).val < (i 0).val / 4000 * 4000 + 4000; omega
    | ⟨1, _⟩ =>
      show win0_3.index _ (1 : Fin 2) * 20 ≤ (i 1).val ∧ (i 1).val < win0_3.index _ (1 : Fin 2) * 20 + 20
      rw [e31]; omega

end

end Cert.KernelIdeal.Hand

end
-- ==== Proof.Region1.lean ====
/-
  Region 1 of the idealized kernel as one function of its arrays.  Point t of the 25 reads rows 4000 t ... of the
  aggregate a : [100000, 20] and of the column d : [100000, 1], the whole bias row b : [1, 20] and the whole weight matrix
  w : [20, 32], and writes rows 4000 t ... of the result.  The body scales each row of its block of a by the row's entry
  of d, adds the bias, clamps below at 0, multiplies by w on the matrix unit into a zero accumulator and scales each row
  by the row's entry of d again, so entry (n, j) of the result is
      (Σ_k max(a(n, k) · d(n, 0) + b(0, k), 0) · w(k, j)) · d(n, 0).
  The 25 row blocks tile the result, hence the whole array ends at that function.
-/
import proofs.«160353_j23304492548303_2_alg».proof.Proof.Gen.KernelIdeal.Frame
import proofs.«160353_j23304492548303_2_alg».proof.Proof.LibMatmulZero
import proofs.«160353_j23304492548303_2_alg».proof.Proof.LibRowOpsB
import proofs.«160353_j23304492548303_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Entry (n, j): the clamped, biased, scaled row n of a times column j of w, scaled by row n's factor. -/
def reluProduct (a : FVec Ideal S100000x20 .f32) (d : FVec Ideal S100000x1 .f32) (b : FVec Ideal S1x20 .f32)
    (w : FVec Ideal S20x32 .f32) : FVec Ideal S100000x32 .f32 :=
  fun i => (∑ k : Fin 20, max (a (ix2 (i 0) k) * d (ix2 (i 0) (0 : Fin 1)) + b (ix2 (0 : Fin 1) k))
      (Ideal.ofBits .f32 0x00000000#32) * w (ix2 k (i 1))) * d (ix2 (i 0) (0 : Fin 1))

/-- The result's axis 0 is the left operand's axis 0 ... -/
theorem dot1_l0 : ∀ (i : (⟨2, ![4000, 32]⟩ : Shape).Idx) (c : dot_S4000x20_S20x32_S4000x32_1_0_0_1_n_n.contr.Idx),
    (dot_S4000x20_S20x32_S4000x32_1_0_0_1_n_n.lhsIdx i c 0).val = (i 0).val := fun i c => by
  unfold DotDims.lhsIdx
  rw [dif_neg (show ¬(0 : Fin _) ∈ dot_S4000x20_S20x32_S4000x32_1_0_0_1_n_n.lhsBatch by decide),
    dif_pos (show (0 : Fin _) ∈ dot_S4000x20_S20x32_S4000x32_1_0_0_1_n_n.lhsNonContracting by decide)]
  rfl
/-- ... and its axis 1 the right operand's axis 1. -/
theorem dot1_r1 : ∀ (i : (⟨2, ![4000, 32]⟩ : Shape).Idx) (c : dot_S4000x20_S20x32_S4000x32_1_0_0_1_n_n.contr.Idx),
    (dot_S4000x20_S20x32_S4000x32_1_0_0_1_n_n.rhsIdx i c 1).val = (i 1).val := fun i c => by
  unfold DotDims.rhsIdx
  rw [dif_neg (show ¬(1 : Fin _) ∈ dot_S4000x20_S20x32_S4000x32_1_0_0_1_n_n.rhsBatch by decide),
    dif_pos (show (1 : Fin _) ∈ dot_S4000x20_S20x32_S4000x32_1_0_0_1_n_n.rhsNonContracting by decide)]
  rfl

/-- The body's stored value at block entry (p, q). -/
theorem pay1_apply (v0 : Vec Ideal S4000x20 .f32) (v2 : Vec Ideal S4000x1 .f32) (v6 : Vec Ideal S1x20 .f32)
    (v13 : Vec Ideal S20x32 .f32) (v16 : Vec Ideal S4000x1 .f32) (p : Fin 4000) (q : Fin 32) :
    k1_pay1 v0 v2 v6 v13 v16 (ix2 p q)
      = (∑ k : Fin 20, max (v0 (ix2 p k) * v2 (ix2 p (0 : Fin 1)) + v6 (ix2 (0 : Fin 1) k))
          (Ideal.ofBits .f32 0x00000000#32) * v13 (ix2 k q)) * v16 (ix2 p (0 : Fin 1)) := by
  unfold k1_pay1
  simp only [shapeCast_self]
  rw [mulf_apply, Cert.LibMatmulZero.matmul_zero_ix2 dot_S4000x20_S20x32_S4000x32_1_0_0_1_n_n rfl rfl rfl rfl dot1_l0 dot1_r1,
    Cert.LibRowOps.broadcastTo_a1_ab_apply]
  refine congrArg (· * v16 (ix2 p (0 : Fin 1))) (Finset.sum_congr rfl fun k _ => ?_)
  rw [truncf_apply, truncf_apply, maximumf_apply, addf_apply, mulf_apply, broadcast_apply,
    Cert.LibRowOps.broadcastTo_a1_ab_apply, broadcastTo_1b_ab_apply]
  rfl

/-- One grid point: the stored block entry y is the whole-array function at the array entry i that y sits at. -/
theorem point1 (v0 : Vec Ideal S4000x20 .f32) (v2 : Vec Ideal S4000x1 .f32) (v6 : Vec Ideal S1x20 .f32)
    (v13 : Vec Ideal S20x32 .f32)
    (A0 : FVec Ideal S100000x20 .f32) (A1 : FVec Ideal S100000x1 .f32) (A2 : FVec Ideal S1x20 .f32) (A3 : FVec Ideal S20x32 .f32)
    (y : S4000x32.Idx) (i : S100000x32.Idx) (T : Nat)
    (hi0 : (i 0).val = T * 4000 + (y 0).val) (hi1 : (i 1).val = (y 1).val)
    (h0 : ∀ (a : S4000x20.Idx) (b : S100000x20.Idx), (b 0).val = T * 4000 + (a 0).val → (b 1).val = (a 1).val → v0 a = A0 b)
    (h1 : ∀ (a : S4000x1.Idx) (b : S100000x1.Idx), (b 0).val = T * 4000 + (a 0).val → v2 a = A1 b)
    (h2 : ∀ a : S1x20.Idx, v6 a = A2 a) (h3 : ∀ a : S20x32.Idx, v13 a = A3 a) :
    k1_pay1 v0 v2 v6 v13 v2 y = reluProduct A0 A1 A2 A3 i := by
  obtain ⟨p, q, rfl⟩ : ∃ (p : Fin 4000) (q : Fin 32), y = ix2 p q := ⟨y 0, y 1, eq_ix2 y⟩
  rw [pay1_apply]
  unfold reluProduct
  have hd : v2 (ix2 p (0 : Fin 1)) = A1 (ix2 (i 0) (0 : Fin 1)) := h1 _ _ hi0
  rw [hd]
  refine congrArg (· * A1 (ix2 (i 0) (0 : Fin 1))) (Finset.sum_congr rfl fun k _ => ?_)
  rw [h0 (ix2 p k) (ix2 (i 0) k) hi0 rfl, h2, h3]
  exact congrArg (fun z => max (A0 (ix2 (i 0) k) * A1 (ix2 (i 0) (0 : Fin 1)) + A2 (ix2 (0 : Fin 1) k)) (Ideal.ofBits .f32 0x00000000#32) * A3 z)
    (funext fun a => Fin.ext (by match a with | ⟨0, _⟩ => rfl | ⟨1, _⟩ => exact hi1.symm))

section
variable (V : (c : Dev nD) → (b : Ref sig .tc) → Buf (Elt Ideal) ((c : Thread nD τ).loc b))

/-- The windows' block indices over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT POINT t WRITES BACK is block t of the function of the arrays as the region finds them. -/
theorem flushed1 (c : Dev nD) (t : Fin cfg1.N) :
    (dat1 V c).flushed 4 t = ((cfg1.win 4).blk t).view.read (Elt Ideal)
      (reluProduct (V c main_v30) (V c main_v16) (V c main_v31) (V c main_arg5)) := by
  show (cfg1.win 4).cut (grid1.coords t) ((dat1 V c).after 4 t) = _
  rw [after1_4]
  unfold out1_4
  rw [View.canon_unit_zero hz2]
  simp only [View.ld_unit_zero (S := S4000x20) hz2, View.ld_unit_zero (S := S4000x1) hz2, View.ld_unit_zero (S := S1x20) hz2,
    View.ld_unit_zero (S := S20x32) hz2]
  obtain ⟨e00, e01, e10, e11, e20, e21, e30, e31, e40, e41⟩ := idx1 t
  funext y
  refine point1 (iblk1 V c 0 t) (iblk1 V c 1 t) (iblk1 V c 2 t) (iblk1 V c 3 t)
    (V c main_v30) (V c main_v16) (V c main_v31) (V c main_arg5)
    y (((cfg1.win 4).blk t).view.emb y) t.val ?_ ?_ ?_ ?_ ?_ ?_
  · show win1_4.index t (0 : Fin 2) * 4000 + 1 * (y 0).val = t.val * 4000 + (y 0).val
    rw [e40]; omega
  · show win1_4.index t (1 : Fin 2) * 32 + 1 * (y 1).val = (y 1).val
    rw [e41]; omega
  · intro a b hb0 hb1
    show V c main_v30 (((cfg1.win 0).blk t).view.emb a) = V c main_v30 b
    refine congrArg (V c main_v30) (funext fun ax => Fin.ext ?_)
    match ax with
    | ⟨0, _⟩ => show win1_0.index t (0 : Fin 2) * 4000 + 1 * (a 0).val = (b 0).val; rw [e00, hb0]; omega
    | ⟨1, _⟩ => show win1_0.index t (1 : Fin 2) * 20 + 1 * (a 1).val = (b 1).val; rw [e01, hb1]; omega
  · intro a b hb0
    show V c main_v16 (((cfg1.win 1).blk t).view.emb a) = V c main_v16 b
    refine congrArg (V c main_v16) (funext fun ax => Fin.ext ?_)
    match ax with
    | ⟨0, _⟩ => show win1_1.index t (0 : Fin 2) * 4000 + 1 * (a 0).val = (b 0).val; rw [e10, hb0]; omega
    | ⟨1, _⟩ =>
      show win1_1.index t (1 : Fin 2) * 1 + 1 * (a 1).val = (b 1).val
      have ha : (a 1).val < 1 := (a 1).isLt
      have hb : (b 1).val < 1 := (b 1).isLt
      rw [e11]; omega
  · intro a
    show V c main_v31 (((cfg1.win 2).blk t).view.emb a) = V c main_v31 a
    refine congrArg (V c main_v31) (funext fun ax => Fin.ext ?_)
    match ax with
    | ⟨0, _⟩ => show win1_2.index t (0 : Fin 2) * 1 + 1 * (a 0).val = (a 0).val; rw [e20]; omega
    | ⟨1, _⟩ => show win1_2.index t (1 : Fin 2) * 20 + 1 * (a 1).val = (a 1).val; rw [e21]; omega
  · intro a
    show V c main_arg5 (((cfg1.win 3).blk t).view.emb a) = V c main_arg5 a
    refine congrArg (V c main_arg5) (funext fun ax => Fin.ext ?_)
    match ax with
    | ⟨0, _⟩ => show win1_3.index t (0 : Fin 2) * 20 + 1 * (a 0).val = (a 0).val; rw [e30]; omega
    | ⟨1, _⟩ => show win1_3.index t (1 : Fin 2) * 32 + 1 * (a 1).val = (a 1).val; rw [e31]; omega

/-- An index of the result is in point t's block iff each coordinate is in the block's range on its axis. -/
theorem mem_blk1 (t : Fin cfg1.N) (i : S100000x32.Idx) :
    i ∈ ((cfg1.win 4).blk t).view.set ↔ ∀ a : Fin 2, win1_4.index t a * S4000x32.size a ≤ (i a).val
      ∧ (i a).val < win1_4.index t a * S4000x32.size a + S4000x32.size a := by
  show i ∈ ((View.whole main_v32).slice (win1_4.rect t)).set ↔ _
  rw [View.set_slice_whole, Rect.mem_set_unit]
  exact Iff.rfl

/-- THE ARRAY after the region (row n is in block n / 4000). -/
theorem final1 (c : Dev nD) : (dat1 V c).arrAt 4 cfg1.N
    = reluProduct (V c main_v30) (V c main_v16) (V c main_v31) (V c main_arg5) :=
  (dat1 V c).arrAt_eq_of_cover 4 _ (fun t _ => flushed1 V c t) fun i => by
    have hi0 : (i 0).val < 100000 := (i 0).isLt
    have hi1 : (i 1).val < 32 := (i 1).isLt
    have hN : cfg1.N = 25 := N_1
    refine ⟨⟨(i 0).val / 4000, by rw [hN]; omega⟩, flush1_4 _, ?_⟩
    rw [mem_blk1]
    obtain ⟨-, -, -, -, -, -, -, -, e40, e41⟩ := idx1 ⟨(i 0).val / 4000, by rw [hN]; omega⟩
    intro a
    match a with
    | ⟨0, _⟩ =>
      show win1_4.index _ (0 : Fin 2) * 4000 ≤ (i 0).val ∧ (i 0).val < win1_4.index _ (0 : Fin 2) * 4000 + 4000
      rw [e40]; show (i 0).val / 4000 * 4000 ≤ (i 0).val ∧ (i 0).val < (i 0).val / 4000 * 4000 + 4000; omega
    | ⟨1, _⟩ =>
      show win1_4.index _ (1 : Fin 2) * 32 ≤ (i 1).val ∧ (i 1).val < win1_4.index _ (1 : Fin 2) * 32 + 32
      rw [e41]; omega

end

end Cert.KernelIdeal.Hand

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.Region2.lean ====
/-
  Region 2 of the idealized kernel as one function of its arrays.  Point t of the 25 reads rows 4000 t ... of the
  aggregate a : [100000, 32] and of the column d : [100000, 1] and the whole bias row b : [1, 32], and writes rows
  4000 t ... of the result.  With h(n, j) = max(a(n, j) · d(n, 0) + b(0, j), 0), the body takes each row's maximum M(n)
  over its 32 entries (a fold of max from -∞), subtracts it, and subtracts the logarithm of the row's sum of
  exponentials: entry (n, q) of the result is
      (h(n, q) - M(n)) - log Σ_j exp(h(n, j) - M(n)).
  Everything in a row of the result depends on that row of the arrays only, and a block holds whole rows, so the 25
  row blocks give the whole array as that one function.
-/
import proofs.«160353_j23304492548303_2_alg».proof.Proof.Gen.KernelIdeal.Frame
import proofs.«160353_j23304492548303_2_alg».proof.Proof.LibRowOps
import proofs.«160353_j23304492548303_2_alg».proof.Proof.LibRowOpsB
import proofs.«160353_j23304492548303_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The log-softmax of 32 extended reals at position q, the maximum taken as the fold of max from -∞. -/
def logSoftmaxOf (h : Fin 32 → EReal) (q : Fin 32) : EReal :=
  (h q - (Finset.univ : Finset (Fin 32)).fold max (Ideal.ofBits .f32 0xFF800000#32) h)
    - Ideal.log (∑ j : Fin 32, Ideal.exp (h j - (Finset.univ : Finset (Fin 32)).fold max (Ideal.ofBits .f32 0xFF800000#32) h))

/-- Row n of the clamped, biased, scaled aggregate. -/
def clampedRow (a : FVec Ideal S100000x32 .f32) (d : FVec Ideal S100000x1 .f32) (b : FVec Ideal S1x32 .f32)
    (n : Fin 100000) (j : Fin 32) : EReal :=
  max (a (ix2 n j) * d (ix2 n (0 : Fin 1)) + b (ix2 (0 : Fin 1) j)) (Ideal.ofBits .f32 0x00000000#32)

/-- Entry (n, q): the log-softmax of row n of the clamped, biased, scaled aggregate, at q. -/
def scaledLogSoftmax (a : FVec Ideal S100000x32 .f32) (d : FVec Ideal S100000x1 .f32) (b : FVec Ideal S1x32 .f32) :
    FVec Ideal S100000x32 .f32 :=
  fun i => logSoftmaxOf (clampedRow a d b (i 0)) (i 1)

/-- The row-wise tail of the body on a block X: subtract each row's maximum, then the log of the row's sum of exps. -/
theorem lsm_block (X : FVec Ideal S4000x32 .f32) (p : Fin 4000) (q : Fin 32) :
    subf (subf X (broadcastTo S4000x32 (shapeCast S4000x1
          (multiReduction .maximumf [1] S4000 X 0xFF800000#32 reduces_S4000x32_S4000 (.inl rfl) rfl)
          shapeCasts_S4000_S4000x1) broadcasts_S4000x1_S4000x32))
      (broadcastTo S4000x32 (log (shapeCast S4000x1
          (multiReduction .add [1] S4000 (exp (subf X (broadcastTo S4000x32 (shapeCast S4000x1
              (multiReduction .maximumf [1] S4000 X 0xFF800000#32 reduces_S4000x32_S4000 (.inl rfl) rfl)
              shapeCasts_S4000_S4000x1) broadcasts_S4000x1_S4000x32))) 0x00000000#32 reduces_S4000x32_S4000 (.inl rfl) rfl)
          shapeCasts_S4000_S4000x1)) broadcasts_S4000x1_S4000x32) (ix2 p q)
      = logSoftmaxOf (fun j => X (ix2 p j)) q := by
  have hM : ∀ a : Fin 32, (broadcastTo S4000x32 (shapeCast S4000x1
        (multiReduction .maximumf [1] S4000 X 0xFF800000#32 reduces_S4000x32_S4000 (.inl rfl) rfl)
        shapeCasts_S4000_S4000x1) broadcasts_S4000x1_S4000x32) (ix2 p a)
      = (Finset.univ : Finset (Fin 32)).fold max (Ideal.ofBits .f32 0xFF800000#32) (fun j => X (ix2 p j)) := fun a =>
    (Cert.LibRow.colBroadcast_apply _ _ _ p a).trans (Cert.LibRow.rowMax_apply X _ _ _ _ p)
  unfold logSoftmaxOf
  rw [subf_apply, subf_apply, hM q]
  refine congrArg (X (ix2 p q) - Finset.fold max (Ideal.ofBits .f32 0xFF800000#32) (fun j => X (ix2 p j)) Finset.univ - ·) ?_
  rw [Cert.LibRowOps.broadcastTo_a1_ab_apply]
  show Ideal.log ((shapeCast S4000x1 _ shapeCasts_S4000_S4000x1) (ix2 p (0 : Fin 1))) = _
  rw [Cert.LibRowOps.shapeCast_a_a1_apply]
  refine congrArg Ideal.log ((Cert.LibRow.rowAdd_apply _ _ _ _ p).trans (Finset.sum_congr rfl fun k _ => ?_))
  show Ideal.exp (X (ix2 p k) - _) = _
  rw [hM k]

/-- The body's stored value at block entry (p, q). -/
theorem pay2_apply (v0 : Vec Ideal S4000x32 .f32) (v2 : Vec Ideal S4000x1 .f32) (v6 : Vec Ideal S1x32 .f32)
    (p : Fin 4000) (q : Fin 32) :
    k2_pay1 v0 v2 v6 (ix2 p q)
      = logSoftmaxOf (fun j => max (v0 (ix2 p j) * v2 (ix2 p (0 : Fin 1)) + v6 (ix2 (0 : Fin 1) j))
          (Ideal.ofBits .f32 0x00000000#32)) q := by
  unfold k2_pay1
  simp only [shapeCast_self]
  refine (lsm_block _ p q).trans (congrArg (logSoftmaxOf · q) (funext fun j => ?_))
  rw [maximumf_apply, addf_apply, mulf_apply, broadcast_apply, Cert.LibRowOps.broadcastTo_a1_ab_apply, broadcastTo_1b_ab_apply]
  rfl

/-- One grid point: the stored block entry y is the whole-array function at the array entry i that y sits at. -/
theorem point2 (v0 : Vec Ideal S4000x32 .f32) (v2 : Vec Ideal S4000x1 .f32) (v6 : Vec Ideal S1x32 .f32)
    (A0 : FVec Ideal S100000x32 .f32) (A1 : FVec Ideal S100000x1 .f32) (A2 : FVec Ideal S1x32 .f32)
    (y : S4000x32.Idx) (i : S100000x32.Idx) (T : Nat)
    (hi0 : (i 0).val = T * 4000 + (y 0).val) (hi1 : (i 1).val = (y 1).val)
    (h0 : ∀ (a : S4000x32.Idx) (b : S100000x32.Idx), (b 0).val = T * 4000 + (a 0).val → (b 1).val = (a 1).val → v0 a = A0 b)
    (h1 : ∀ (a : S4000x1.Idx) (b : S100000x1.Idx), (b 0).val = T * 4000 + (a 0).val → v2 a = A1 b)
    (h2 : ∀ a : S1x32.Idx, v6 a = A2 a) :
    k2_pay1 v0 v2 v6 y = scaledLogSoftmax A0 A1 A2 i := by
  obtain ⟨p, q, rfl⟩ : ∃ (p : Fin 4000) (q : Fin 32), y = ix2 p q := ⟨y 0, y 1, eq_ix2 y⟩
  rw [pay2_apply]
  unfold scaledLogSoftmax
  have hq : q = i 1 := Fin.ext hi1.symm
  rw [← hq]
  refine congrArg (logSoftmaxOf · q) (funext fun j => ?_)
  unfold clampedRow
  rw [h0 (ix2 p j) (ix2 (i 0) j) hi0 rfl, h1 (ix2 p (0 : Fin 1)) (ix2 (i 0) (0 : Fin 1)) hi0, h2]

section
variable (V : (c : Dev nD) → (b : Ref sig .tc) → Buf (Elt Ideal) ((c : Thread nD τ).loc b))

/-- The windows' block indices over the grid. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of the function of the arrays as the region finds them. -/
theorem flushed2 (c : Dev nD) (t : Fin cfg2.N) :
    (dat2 V c).flushed 3 t = ((cfg2.win 3).blk t).view.read (Elt Ideal)
      (scaledLogSoftmax (V c main_v45) (V c main_v16) (V c main_v46)) := by
  show (cfg2.win 3).cut (grid2.coords t) ((dat2 V c).after 3 t) = _
  rw [after2_3]
  unfold out2_3
  rw [View.canon_unit_zero hz2]
  simp only [View.ld_unit_zero (S := S4000x32) hz2, View.ld_unit_zero (S := S4000x1) hz2, View.ld_unit_zero (S := S1x32) hz2]
  obtain ⟨e00, e01, e10, e11, e20, e21, e30, e31⟩ := idx2 t
  funext y
  refine point2 (iblk2 V c 0 t) (iblk2 V c 1 t) (iblk2 V c 2 t) (V c main_v45) (V c main_v16) (V c main_v46)
    y (((cfg2.win 3).blk t).view.emb y) t.val ?_ ?_ ?_ ?_ ?_
  · show win2_3.index t (0 : Fin 2) * 4000 + 1 * (y 0).val = t.val * 4000 + (y 0).val
    rw [e30]; omega
  · show win2_3.index t (1 : Fin 2) * 32 + 1 * (y 1).val = (y 1).val
    rw [e31]; omega
  · intro a b hb0 hb1
    show V c main_v45 (((cfg2.win 0).blk t).view.emb a) = V c main_v45 b
    refine congrArg (V c main_v45) (funext fun ax => Fin.ext ?_)
    match ax with
    | ⟨0, _⟩ => show win2_0.index t (0 : Fin 2) * 4000 + 1 * (a 0).val = (b 0).val; rw [e00, hb0]; omega
    | ⟨1, _⟩ => show win2_0.index t (1 : Fin 2) * 32 + 1 * (a 1).val = (b 1).val; rw [e01, hb1]; omega
  · intro a b hb0
    show V c main_v16 (((cfg2.win 1).blk t).view.emb a) = V c main_v16 b
    refine congrArg (V c main_v16) (funext fun ax => Fin.ext ?_)
    match ax with
    | ⟨0, _⟩ => show win2_1.index t (0 : Fin 2) * 4000 + 1 * (a 0).val = (b 0).val; rw [e10, hb0]; omega
    | ⟨1, _⟩ =>
      show win2_1.index t (1 : Fin 2) * 1 + 1 * (a 1).val = (b 1).val
      have ha : (a 1).val < 1 := (a 1).isLt
      have hb : (b 1).val < 1 := (b 1).isLt
      rw [e11]; omega
  · intro a
    show V c main_v46 (((cfg2.win 2).blk t).view.emb a) = V c main_v46 a
    refine congrArg (V c main_v46) (funext fun ax => Fin.ext ?_)
    match ax with
    | ⟨0, _⟩ => show win2_2.index t (0 : Fin 2) * 1 + 1 * (a 0).val = (a 0).val; rw [e20]; omega
    | ⟨1, _⟩ => show win2_2.index t (1 : Fin 2) * 32 + 1 * (a 1).val = (a 1).val; rw [e21]; omega

/-- An index of the result is in point t's block iff each coordinate is in the block's range on its axis. -/
theorem mem_blk2 (t : Fin cfg2.N) (i : S100000x32.Idx) :
    i ∈ ((cfg2.win 3).blk t).view.set ↔ ∀ a : Fin 2, win2_3.index t a * S4000x32.size a ≤ (i a).val
      ∧ (i a).val < win2_3.index t a * S4000x32.size a + S4000x32.size a := by
  show i ∈ ((View.whole main_v47).slice (win2_3.rect t)).set ↔ _
  rw [View.set_slice_whole, Rect.mem_set_unit]
  exact Iff.rfl

/-- THE ARRAY after the region (row n is in block n / 4000). -/
theorem final2 (c : Dev nD) : (dat2 V c).arrAt 3 cfg2.N
    = scaledLogSoftmax (V c main_v45) (V c main_v16) (V c main_v46) :=
  (dat2 V c).arrAt_eq_of_cover 3 _ (fun t _ => flushed2 V c t) fun i => by
    have hi0 : (i 0).val < 100000 := (i 0).isLt
    have hi1 : (i 1).val < 32 := (i 1).isLt
    have hN : cfg2.N = 25 := N_2
    refine ⟨⟨(i 0).val / 4000, by rw [hN]; omega⟩, flush2_3 _, ?_⟩
    rw [mem_blk2]
    obtain ⟨-, -, -, -, -, -, e30, e31⟩ := idx2 ⟨(i 0).val / 4000, by rw [hN]; omega⟩
    intro a
    match a with
    | ⟨0, _⟩ =>
      show win2_3.index _ (0 : Fin 2) * 4000 ≤ (i 0).val ∧ (i 0).val < win2_3.index _ (0 : Fin 2) * 4000 + 4000
      rw [e30]; show (i 0).val / 4000 * 4000 ≤ (i 0).val ∧ (i 0).val < (i 0).val / 4000 * 4000 + 4000; omega
    | ⟨1, _⟩ =>
      show win2_3.index _ (1 : Fin 2) * 32 ≤ (i 1).val ∧ (i 1).val < win2_3.index _ (1 : Fin 2) * 32 + 32
      rw [e31]; omega

end

end Cert.KernelIdeal.Hand

end
-- ==== Proof.KernelValue.lean ====
/-
  The idealized kernel's result as one function of the seven argument arrays.

  The program computes, on the host, the source and destination ids src, dst (the edge list's rows followed by the self
  loops), the weights w (the edge weights followed by ones), the degree deg (w scattered onto dst) and the column
  d = where(deg > 0, rsqrt deg, 0); then
    region 0:  P1(n, j) = (Σ_k x(n, k) W1(k, j)) · d(n)                      (rows of x W1 scaled at the source)
    host:      A1 = scatter-add onto dst of  P1[src] · w
    region 1:  P2(n, j) = (Σ_k max(A1(n, k) · d(n) + b1(k), 0) W2(k, j)) · d(n)
    host:      A2 = scatter-add onto dst of  P2[src] · w
    region 2:  out(n, ·) = log-softmax of the row  max(A2(n, ·) · d(n) + b2, 0).
  Each buffer's contents at each boundary of the program (launch, after each host stretch, after each region) is read
  off the boundary before it: a region's output array is the region's function of its input arrays as the region found
  them, a host stretch's result is its operations applied to what was there, and every other buffer is unchanged.  The
  host values shared with the reference (src, dst, w, d and the wrapped, column-shaped index arrays) are named by the
  reference's own stage functions, with which they coincide term by term.
-/
import proofs.«160353_j23304492548303_2_alg».proof.Proof.Gen.KernelIdeal.Frame
import proofs.«160353_j23304492548303_2_alg».proof.Proof.Region0
import proofs.«160353_j23304492548303_2_alg».proof.Proof.Region1
import proofs.«160353_j23304492548303_2_alg».proof.Proof.Region2
import proofs.«160353_j23304492548303_2_alg».proof.Proof.RefReadP
import Idealize.ShloMosaic.Lib.Pipeline.Value
import Idealize.ShloMosaic.Lib.ValueIdx
import Idealize.ShloMosaic.PureOps.Ideal.Laws
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Cert.ReferenceIdeal.ReadP Idealize.ShloMosaic.StableHlo

/-! ## The stages -/

/-- The column d of guarded inverse square roots of the degrees. -/
def kD (x1 : IVec S2x3200000 32) (x2 : FVec Ideal S3200000 .f32) : FVec Ideal S100000x1 .f32 :=
  shapeCast S100000x1 (val_main_v15 (F := Ideal) x1 x2) shapeCasts_S100000_S100000x1

/-- The weights repeated along 20 columns, and along 32. -/
def kW20 (x2 : FVec Ideal S3200000 .f32) : FVec Ideal S3300000x20 .f32 :=
  broadcastInDim S3300000x20 ![0, 1] bcast_S3300000x1_S3300000x20_0_1
    (broadcastInDim S3300000x1 ![0] bcast_S3300000_S3300000x1_0 (val_main_v8 (F := Ideal) x2))
def kW32 (x2 : FVec Ideal S3200000 .f32) : FVec Ideal S3300000x32 .f32 :=
  broadcastInDim S3300000x32 ![0, 1] bcast_S3300000x1_S3300000x32_0_1
    (broadcastInDim S3300000x1 ![0] bcast_S3300000_S3300000x1_0 (val_main_v8 (F := Ideal) x2))

/-- Layer 1's aggregate: the source-scaled product gathered at src, weighted, scattered onto dst. -/
def kAgg1 (x0 : FVec Ideal S100000x128 .f32) (x1 : IVec S2x3200000 32) (x2 : FVec Ideal S3200000 .f32)
    (x3 : FVec Ideal S128x20 .f32) : FVec Ideal S100000x20 .f32 :=
  Host.scatterAdd (F := Ideal) scatter_S100000x20_S3300000x1_S3300000x20_1_0_0_1
    (broadcastInDim S100000x20 ![] bcast_S_S100000x20 (constant (F := Ideal) S_ .f32 0x00000000#32))
    (val_main_v44 (F := Ideal) x1)
    (mulf (Host.gather gather_S100000x20_S3300000x1_S3300000x20_1_0_n_n_0_1_120 (scaledProduct x0 x3 (kD x1 x2))
      (val_main_v38 (F := Ideal) x1)) (kW20 x2))

/-- Layer 2's source-scaled product. -/
def kH (x0 : FVec Ideal S100000x128 .f32) (x1 : IVec S2x3200000 32) (x2 : FVec Ideal S3200000 .f32)
    (x3 : FVec Ideal S128x20 .f32) (x4 : FVec Ideal S20 .f32) (x5 : FVec Ideal S20x32 .f32) : FVec Ideal S100000x32 .f32 :=
  reluProduct (kAgg1 x0 x1 x2 x3) (kD x1 x2) (shapeCast S1x20 x4 shapeCasts_S20_S1x20) x5

/-- Layer 2's aggregate. -/
def kAgg2 (x0 : FVec Ideal S100000x128 .f32) (x1 : IVec S2x3200000 32) (x2 : FVec Ideal S3200000 .f32)
    (x3 : FVec Ideal S128x20 .f32) (x4 : FVec Ideal S20 .f32) (x5 : FVec Ideal S20x32 .f32) : FVec Ideal S100000x32 .f32 :=
  Host.scatterAdd (F := Ideal) scatter_S100000x32_S3300000x1_S3300000x32_1_0_0_1
    (broadcastInDim S100000x32 ![] bcast_S_S100000x32 (constant (F := Ideal) S_ .f32 0x00000000#32))
    (val_main_v62 (F := Ideal) x1)
    (mulf (Host.gather gather_S100000x32_S3300000x1_S3300000x32_1_0_n_n_0_1_132 (kH x0 x1 x2 x3 x4 x5)
      (val_main_v56 (F := Ideal) x1)) (kW32 x2))

/-- The kernel's result. -/
def kOut (x0 : FVec Ideal S100000x128 .f32) (x1 : IVec S2x3200000 32) (x2 : FVec Ideal S3200000 .f32)
    (x3 : FVec Ideal S128x20 .f32) (x4 : FVec Ideal S20 .f32) (x5 : FVec Ideal S20x32 .f32) (x6 : FVec Ideal S32 .f32) :
    FVec Ideal S100000x32 .f32 :=
  scaledLogSoftmax (kAgg2 x0 x1 x2 x3 x4 x5) (kD x1 x2) (shapeCast S1x32 x6 shapeCasts_S32_S1x32)

/-! ## The buffers at each boundary -/

section
variable (m : (ℓ : Loc nD τ sig) → Buf (Elt Ideal) ℓ) (ρ : Dev nD → PrngReg) (c : Dev nD)

/-- Reads a buffer after the three host stretches before region 0. -/
macro "read_W3" : tactic =>
  `(tactic| (dsimp only [W3, W2, W1, W0, hostOps0, hostOps0_1, hostOps0_2]; after_results))

/-! ### Entry of region 0 -/
theorem W3_arg0 : W3 m ρ c (Proc.devRef .tc main_arg0) = (m ((c : Thread nD τ).loc main_arg0)) := by read_W3
theorem W3_arg3 : W3 m ρ c (Proc.devRef .tc main_arg3) = (m ((c : Thread nD τ).loc main_arg3)) := by read_W3
theorem W3_arg4 : W3 m ρ c (Proc.devRef .tc main_arg4) = (m ((c : Thread nD τ).loc main_arg4)) := by read_W3
theorem W3_arg5 : W3 m ρ c (Proc.devRef .tc main_arg5) = (m ((c : Thread nD τ).loc main_arg5)) := by read_W3
theorem W3_arg6 : W3 m ρ c (Proc.devRef .tc main_arg6) = (m ((c : Thread nD τ).loc main_arg6)) := by read_W3
theorem W3_v3 : W3 m ρ c (Proc.devRef .tc main_v3) = val_main_v3 (F := Ideal) (m ((c : Thread nD τ).loc main_arg1)) := by read_W3; rfl
theorem W3_v6 : W3 m ρ c (Proc.devRef .tc main_v6) = val_main_v6 (F := Ideal) (m ((c : Thread nD τ).loc main_arg1)) := by read_W3; rfl
theorem W3_v8 : W3 m ρ c (Proc.devRef .tc main_v8) = val_main_v8 (F := Ideal) (m ((c : Thread nD τ).loc main_arg2)) := by read_W3; rfl
/-- After the first stretch: the degree's positivity mask, its inverse root, and the zero the guard falls back to. -/
theorem W1_v13 : W1 m ρ c (Proc.devRef .tc main_v13) = val_main_v13 (F := Ideal) (m ((c : Thread nD τ).loc main_arg1)) (m ((c : Thread nD τ).loc main_arg2)) := by
  dsimp only [W1, W0, hostOps0]; after_results; rfl
theorem W1_v14 : W1 m ρ c (Proc.devRef .tc main_v14) = val_main_v14 (F := Ideal) (m ((c : Thread nD τ).loc main_arg1)) (m ((c : Thread nD τ).loc main_arg2)) := by
  dsimp only [W1, W0, hostOps0]; after_results; rfl
theorem W1_cst_2 : W1 m ρ c (Proc.devRef .tc main_cst_2) = val_main_cst_2 (F := Ideal) := by
  dsimp only [W1, W0, hostOps0]; after_results; rfl
/-- After the guard: the column's entries, as a vector. -/
theorem W2_v15 : W2 m ρ c (Proc.devRef .tc main_v15) = val_main_v15 (F := Ideal) (m ((c : Thread nD τ).loc main_arg1)) (m ((c : Thread nD τ).loc main_arg2)) := by
  show StableHlo.after hostOps0_1 (W1 m ρ c) (Proc.devRef .tc main_v15) = _
  have h13 := W1_v13 m ρ c
  have h14 := W1_v14 m ρ c
  have hc := W1_cst_2 m ρ c
  generalize W1 m ρ c = W at h13 h14 hc ⊢
  dsimp only [hostOps0_1]; after_results
  show select (W (Proc.devRef .tc main_v13)) (W (Proc.devRef .tc main_v14))
    (broadcastInDim S100000 ![] bcast_S_S100000 (id (W (Proc.devRef .tc main_cst_2)))) = _
  rw [h13, h14, hc]
  rfl
theorem W3_v16 : W3 m ρ c (Proc.devRef .tc main_v16) = kD (m ((c : Thread nD τ).loc main_arg1)) (m ((c : Thread nD τ).loc main_arg2)) := by
  show StableHlo.after hostOps0_2 (W2 m ρ c) (Proc.devRef .tc main_v16) = _
  have h15 := W2_v15 m ρ c
  generalize W2 m ρ c = W at h15 ⊢
  dsimp only [hostOps0_2]; after_results
  rw [h15]
  rfl

/-! ### Exit of region 0 -/
theorem W4_v17 : W4 m ρ c (Proc.devRef .tc main_v17) = scaledProduct (m ((c : Thread nD τ).loc main_arg0)) (m ((c : Thread nD τ).loc main_arg3)) (kD (m ((c : Thread nD τ).loc main_arg1)) (m ((c : Thread nD τ).loc main_arg2))) := by
  refine (W4_arr m ρ c 3).trans ((final0 (V3 m ρ) c).trans ?_)
  show scaledProduct (W3 m ρ c (Proc.devRef .tc main_arg0)) (W3 m ρ c (Proc.devRef .tc main_arg3)) (W3 m ρ c (Proc.devRef .tc main_v16)) = _
  rw [W3_arg0, W3_arg3, W3_v16]
theorem W4_v16 : W4 m ρ c (Proc.devRef .tc main_v16) = kD (m ((c : Thread nD τ).loc main_arg1)) (m ((c : Thread nD τ).loc main_arg2)) :=
  ((W4_arr m ρ c 2).trans (((dat0 (V3 m ρ) c).arrAt_in 2 rfl _).trans (A_eq0 (V3 m ρ) c 2))).trans (W3_v16 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_v6 : W4 m ρ c (Proc.devRef .tc main_v6) = val_main_v6 (F := Ideal) (m ((c : Thread nD τ).loc main_arg1)) :=
  (W4_of_ne m ρ c main_v6 (by decide)).trans (W3_v6 m ρ c)
theorem W4_v8 : W4 m ρ c (Proc.devRef .tc main_v8) = val_main_v8 (F := Ideal) (m ((c : Thread nD τ).loc main_arg2)) :=
  (W4_of_ne m ρ c main_v8 (by decide)).trans (W3_v8 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

/-- Reads a buffer after the host stretch between regions 0 and 1. -/
macro "read_W5" : tactic => `(tactic| (dsimp only [W5, hostOps1]; after_results))

/-! ### Entry of region 1 -/
set_option maxHeartbeats 8000000 in
theorem W5_v30 : W5 m ρ c (Proc.devRef .tc main_v30) = kAgg1 (m ((c : Thread nD τ).loc main_arg0)) (m ((c : Thread nD τ).loc main_arg1)) (m ((c : Thread nD τ).loc main_arg2)) (m ((c : Thread nD τ).loc main_arg3)) := by
  read_W5
  rw [W4_v17, W4_v3, W4_v6, W4_v8]
  rfl
theorem W5_v31 : W5 m ρ c (Proc.devRef .tc main_v31) = shapeCast S1x20 (m ((c : Thread nD τ).loc main_arg4)) shapeCasts_S20_S1x20 := by
  read_W5
  rw [W4_arg4]
  rfl
theorem W5_v16 : W5 m ρ c (Proc.devRef .tc main_v16) = kD (m ((c : Thread nD τ).loc main_arg1)) (m ((c : Thread nD τ).loc main_arg2)) := by read_W5; exact W4_v16 m ρ c
theorem W5_v3 : W5 m ρ c (Proc.devRef .tc main_v3) = val_main_v3 (F := Ideal) (m ((c : Thread nD τ).loc main_arg1)) := by read_W5; exact W4_v3 m ρ c
theorem W5_v6 : W5 m ρ c (Proc.devRef .tc main_v6) = val_main_v6 (F := Ideal) (m ((c : Thread nD τ).loc main_arg1)) := by read_W5; exact W4_v6 m ρ c
theorem W5_v8 : W5 m ρ c (Proc.devRef .tc main_v8) = val_main_v8 (F := Ideal) (m ((c : Thread nD τ).loc main_arg2)) := by read_W5; exact W4_v8 m ρ c
theorem W5_arg5 : W5 m ρ c (Proc.devRef .tc main_arg5) = (m ((c : Thread nD τ).loc main_arg5)) := by read_W5; exact W4_arg5 m ρ c
theorem W5_arg6 : W5 m ρ c (Proc.devRef .tc main_arg6) = (m ((c : Thread nD τ).loc main_arg6)) := by read_W5; exact W4_arg6 m ρ c

/-! ### Exit of region 1 -/
theorem W6_v32 : W6 m ρ c (Proc.devRef .tc main_v32) = kH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 4).trans ((final1 (V5 m ρ) c).trans ?_)
  show reluProduct (W5 m ρ c (Proc.devRef .tc main_v30)) (W5 m ρ c (Proc.devRef .tc main_v16))
    (W5 m ρ c (Proc.devRef .tc main_v31)) (W5 m ρ c (Proc.devRef .tc main_arg5)) = _
  rw [W5_v30, W5_v16, W5_v31, W5_arg5]
  rfl
theorem W6_v16 : W6 m ρ c (Proc.devRef .tc main_v16) = kD (m ((c : Thread nD τ).loc main_arg1)) (m ((c : Thread nD τ).loc main_arg2)) :=
  ((W6_arr m ρ c 1).trans (((dat1 (V5 m ρ) c).arrAt_in 1 rfl _).trans (A_eq1 (V5 m ρ) c 1))).trans (W5_v16 m ρ c)
theorem W6_v3 : W6 m ρ c (Proc.devRef .tc main_v3) = val_main_v3 (F := Ideal) (m ((c : Thread nD τ).loc main_arg1)) :=
  (W6_of_ne m ρ c main_v3 (by decide)).trans (W5_v3 m ρ c)
theorem W6_v6 : W6 m ρ c (Proc.devRef .tc main_v6) = val_main_v6 (F := Ideal) (m ((c : Thread nD τ).loc main_arg1)) :=
  (W6_of_ne m ρ c main_v6 (by decide)).trans (W5_v6 m ρ c)
theorem W6_v8 : W6 m ρ c (Proc.devRef .tc main_v8) = val_main_v8 (F := Ideal) (m ((c : Thread nD τ).loc main_arg2)) :=
  (W6_of_ne m ρ c main_v8 (by decide)).trans (W5_v8 m ρ c)
theorem W6_arg6 : W6 m ρ c (Proc.devRef .tc main_arg6) = (m ((c : Thread nD τ).loc main_arg6)) := (W6_of_ne m ρ c main_arg6 (by decide)).trans (W5_arg6 m ρ c)

/-- Reads a buffer after the host stretch between regions 1 and 2. -/
macro "read_W7" : tactic => `(tactic| (dsimp only [W7, hostOps2]; after_results))

/-! ### Entry of region 2 -/
set_option maxHeartbeats 8000000 in
theorem W7_v45 : W7 m ρ c (Proc.devRef .tc main_v45) = kAgg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  read_W7
  rw [W6_v32, W6_v3, W6_v6, W6_v8]
  rfl
theorem W7_v46 : W7 m ρ c (Proc.devRef .tc main_v46) = shapeCast S1x32 (m ((c : Thread nD τ).loc main_arg6)) shapeCasts_S32_S1x32 := by
  read_W7
  rw [W6_arg6]
  rfl
theorem W7_v16 : W7 m ρ c (Proc.devRef .tc main_v16) = kD (m ((c : Thread nD τ).loc main_arg1)) (m ((c : Thread nD τ).loc main_arg2)) := by read_W7; exact W6_v16 m ρ c

/-! ### The result -/

/-- After the last region the result buffer holds the kernel's function of the seven argument arrays. -/
theorem W8_v47 : W8 m ρ c (Proc.devRef .tc main_v47) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ((final2 (V7 m ρ) c).trans ?_)
  show scaledLogSoftmax (W7 m ρ c (Proc.devRef .tc main_v45)) (W7 m ρ c (Proc.devRef .tc main_v16))
    (W7 m ρ c (Proc.devRef .tc main_v46)) = _
  rw [W7_v45, W7_v16, W7_v46]
  rfl

end

end Cert.KernelIdeal.Hand

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.Bridge.lean ====
/-
  The kernel's result and the reference's result are one function of the arguments, on the extended reals.

  Write src, dst for the ids, w for the weights, d for the column of guarded inverse roots (all shared), r(e) for the
  row a gather reads for edge e (src(e) wrapped and clamped) and S(n) for the edges that a scatter-add lands on row n:
  those whose dst, read signed and not clamped, is n.  For e in S(n) the index dst(e) is not negative, so wrapping leaves
  it alone and its clamp is n: the reference's dinv[dst(e)] is d(n).

  One layer.  With T the product table of the layer (x W1, then relu(...) W2),
    reference:  R(n, j) = Σ_{e ∈ S(n)} T(r e, j) · ((d(r e) · w(e)) · d(n))
    kernel:     K(n, j) = Σ_{e ∈ S(n)} (T(r e, j) · d(r e)) · w(e),     and it uses K(n, j) · d(n).
  Each summand of R is the matching summand of K times d(n), by associativity of the product.  d(n) is a non-negative
  real number whatever the inputs are (the inverse root of a positive real, 0 at +∞, 0 where the guard fails), and on the
  extended reals such a factor leaves any finite sum.  Hence K(n, j) · d(n) = R(n, j).  Adding the bias and clamping at 0
  are the same operations on both sides, so the layers' outputs agree, and the second layer's table, computed from them,
  agrees too.

  The last step is the row-wise log-softmax of the same rows: the reference's row maximum is max(-∞, fold of max from -∞)
  and its sum of exponentials starts from 0; the kernel's are the fold and the sum themselves.
-/
import proofs.«160353_j23304492548303_2_alg».proof.Proof.Gen.KernelIdeal.Frame
import proofs.«160353_j23304492548303_2_alg».proof.Proof.KernelValue
import proofs.«160353_j23304492548303_2_alg».proof.Proof.LibGraphOps
import proofs.«160353_j23304492548303_2_alg».proof.Proof.LibRowOpsB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Cert.KernelIdeal Cert.KernelIdeal.Gen Cert.KernelIdeal.Hand Cert.ReferenceIdeal.ReadP Cert.LibGraph
open Idealize.ShloMosaic Idealize.ShloMosaic.TcCoe Idealize.ShloMosaic.ValueIdx Idealize.SL.Sem
open Idealize.ShloMosaic.Pipeline (Dat)

variable (x0 : FVec Ideal S100000x128 .f32) (x1 : IVec S2x3200000 32) (x2 : FVec Ideal S3200000 .f32)
  (x3 : FVec Ideal S128x20 .f32) (x4 : FVec Ideal S20 .f32) (x5 : FVec Ideal S20x32 .f32) (x6 : FVec Ideal S32 .f32)

theorem hN : 0 < 100000 := by decide

/-! ## The shared host values at an index -/

/-- d(n): the guarded inverse root of node n's degree. -/
abbrev dOf (n : Fin 100000) : EReal := val_main_v15 (F := Ideal) x1 x2 (ix1 n)

/-- d(n) is a non-negative real number. -/
theorem d_nonneg_ne_top (n : Fin 100000) : 0 ≤ dOf x1 x2 n ∧ dOf x1 x2 n ≠ ⊤ := by
  have e : dOf x1 x2 n = Scalar.select (Ideal.cmp .ogt (val_main_v11 (F := Ideal) x1 x2 (ix1 n)) 0)
      (Ideal.rsqrt (val_main_v11 (F := Ideal) x1 x2 (ix1 n))) (0 : EReal) := by
    show val_main_v15 (F := Ideal) x1 x2 (ix1 n) = _
    rw [val_main_v15_apply, val_main_v13_apply, val_main_v14_apply, val_main_call0_v1_apply, val_main_call0_v0_apply,
      val_main_cst_2_apply, val_main_v12_apply, val_main_cst_1_apply]
    simp only [Ideal.cmpf_def, Ideal.hostUnary_rsqrt_def, Ideal.ofBits_def, Ideal.ofBits_zero_f32]
  rw [e]
  exact guardedRsqrt_nonneg_ne_top _

/-- The column d at (n, 0) is d(n). -/
theorem kD_at (n : Fin 100000) : kD x1 x2 (ix2 n (0 : Fin 1)) = dOf x1 x2 n :=
  Cert.LibRowOps.shapeCast_a_a1_apply _ _ n 0

/-- The scatter index of edge e is dst(e). -/
theorem dstIdx_at (e : Fin 3300000) : val_main_v44 (F := Ideal) x1 (ix2 e (0 : Fin 1)) = val_main_v6 (F := Ideal) x1 (ix1 e) := by
  rw [val_main_v44_apply]
  exact congrArg (val_main_v6 (F := Ideal) x1) (funext fun a => Fin.ext (by match a with | ⟨0, _⟩ => rfl))

/-- Where dst(e) is not negative, the wrapped index used to gather d at the destination is dst(e) itself. -/
theorem dstWrapped_at (e : Fin 3300000) (h : 0 ≤ (val_main_v6 (F := Ideal) x1 (ix1 e)).toInt) :
    val_main_v29 (F := Ideal) x1 (ix2 e (0 : Fin 1)) = val_main_v6 (F := Ideal) x1 (ix1 e) := by
  rw [val_main_v29_apply]
  have hi : idx_main_v29 (ix2 e (0 : Fin 1)) = ix1 e := funext fun a => Fin.ext (by match a with | ⟨0, _⟩ => rfl)
  rw [hi, val_main_v28_apply, val_main_v25_apply, val_main_v27_apply]
  exact wrapIdx_of_nonneg _ _ _ (by rw [val_main_v24_apply, val_main_c_4_apply]) h

/-- The reference's per-edge normalisation: (d(r e) · w(e)) · d(clamped wrapped dst(e)). -/
theorem norm_at (e : Fin 3300000) :
    val_main_v31 (F := Ideal) x1 x2 (ix1 e)
      = (dOf x1 x2 (clampIdx 100000 hN (val_main_v38 (F := Ideal) x1 (ix2 e (0 : Fin 1)))) * val_main_v8 (F := Ideal) x2 (ix1 e))
        * dOf x1 x2 (clampIdx 100000 hN (val_main_v29 (F := Ideal) x1 (ix2 e (0 : Fin 1)))) := by
  rw [val_main_v31_apply, val_main_v23_apply]
  have g1 : val_main_v22 (F := Ideal) x1 x2 (ix1 e)
      = dOf x1 x2 (clampIdx 100000 hN (val_main_v38 (F := Ideal) x1 (ix2 e (0 : Fin 1)))) :=
    gatherVec_apply hN Cert.ReferenceIdeal.gather_S100000_S3300000x1_S3300000_n_0_n_n_0_1_1.wf
      (val_main_v15 (F := Ideal) x1 x2) (val_main_v21 (F := Ideal) x1) e
  have g2 : val_main_v30 (F := Ideal) x1 x2 (ix1 e)
      = dOf x1 x2 (clampIdx 100000 hN (val_main_v29 (F := Ideal) x1 (ix2 e (0 : Fin 1)))) :=
    gatherVec_apply hN Cert.ReferenceIdeal.gather_S100000_S3300000x1_S3300000_n_0_n_n_0_1_1.wf
      (val_main_v15 (F := Ideal) x1 x2) (val_main_v29 (F := Ideal) x1) e
  rw [g1, g2]
  rfl

/-! ## One layer -/

/-- ONE LAYER.  T is the kernel's gathered table, Tref the reference's, with T(r, j) = Tref(r, j) · d(r); Wc is the weights
    along J columns and Nm the reference's normalisation along J columns.  Then the kernel's aggregate times d(row) is the
    reference's aggregate. -/
theorem layer {J : Nat}
    (wfG : GatherDims.WF ⟨2, ![100000, J]⟩ ⟨2, ![3300000, 1]⟩ ⟨2, ![3300000, J]⟩ [1] [0] [] [0] [] 1 ![1, J])
    (wfS : ScatterDims.WF ⟨2, ![100000, J]⟩ ⟨2, ![3300000, 1]⟩ ⟨2, ![3300000, J]⟩ [1] [0] [0] 1)
    (T Tref : FVec Ideal ⟨2, ![100000, J]⟩ .f32)
    (hT : ∀ (r : Fin 100000) (j : Fin J), T (ix2 r j) = Tref (ix2 r j) * dOf x1 x2 r)
    (Wc Nm : FVec Ideal ⟨2, ![3300000, J]⟩ .f32)
    (hW : ∀ (e : Fin 3300000) (j : Fin J), Wc (ix2 e j) = val_main_v8 (F := Ideal) x2 (ix1 e))
    (hNm : ∀ (e : Fin 3300000) (j : Fin J), Nm (ix2 e j) = val_main_v31 (F := Ideal) x1 x2 (ix1 e))
    (z : FVec Ideal ⟨2, ![100000, J]⟩ .f32) (hz : ∀ i, z i = 0) (i : (⟨2, ![100000, J]⟩ : Shape).Idx) :
    Host.scatterAdd (F := Ideal) (rowsScatter 100000 J 3300000 wfS) z (val_main_v44 (F := Ideal) x1)
        (mulf (Host.gather (rowsGather 100000 J 3300000 wfG) T (val_main_v38 (F := Ideal) x1)) Wc) i * dOf x1 x2 (i 0)
      = Host.scatterAdd (F := Ideal) (rowsScatter 100000 J 3300000 wfS) z (val_main_v44 (F := Ideal) x1)
        (mulf (Host.gather (rowsGather 100000 J 3300000 wfG) Tref (val_main_v38 (F := Ideal) x1)) Nm) i := by
  refine scatterAdd_rescale wfS z hz (val_main_v44 (F := Ideal) x1) _ _ (dOf x1 x2)
    (fun n => (d_nonneg_ne_top x1 x2 n).1) (fun n => (d_nonneg_ne_top x1 x2 n).2) (fun u i' h => ?_) i
  obtain ⟨e, j, rfl⟩ : ∃ (e : Fin 3300000) (j : Fin J), u = ix2 e j := ⟨u 0, u 1, eq_ix2 u⟩
  have hl : (val_main_v6 (F := Ideal) x1 (ix1 e)).toInt = ((i' 0).val : Int) := by
    have := scatterRows_landed wfS (val_main_v44 (F := Ideal) x1) (ix2 e j) i' h
    rwa [show (ix2 e j) 0 = e from rfl, dstIdx_at] at this
  have hd : clampIdx 100000 hN (val_main_v29 (F := Ideal) x1 (ix2 e (0 : Fin 1))) = i' 0 := by
    rw [dstWrapped_at x1 e (by rw [hl]; exact Int.natCast_nonneg _)]
    exact clampIdx_of_landed hN _ _ hl
  rw [mulf_apply, mulf_apply, gatherRows_apply hN, gatherRows_apply hN, hT, hW, hNm, norm_at, hd]
  simp only [mul_assoc]

/-- The weights along 20 columns, and along 32, at (e, j): w(e). -/
theorem kW20_at (e : Fin 3300000) (j : Fin 20) : kW20 x2 (ix2 e j) = val_main_v8 (F := Ideal) x2 (ix1 e) := by
  unfold kW20
  generalize val_main_v8 (F := Ideal) x2 = y
  refine (broadcastInDim_apply _ bcast_S3300000x1_S3300000x20_0_1 _ (ix2 e j) (ix2 e (0 : Fin 1)) (fun a => match a with
    | ⟨0, _⟩ => by show e.val = if (3300000 : Nat) = 1 then 0 else e.val; rw [if_neg (by decide)]
    | ⟨1, _⟩ => by show 0 = if (1 : Nat) = 1 then 0 else j.val; rw [if_pos rfl])).trans ?_
  exact broadcastInDim_apply _ bcast_S3300000_S3300000x1_0 y (ix2 e (0 : Fin 1)) (ix1 e) (fun a => match a with
    | ⟨0, _⟩ => by show e.val = if (3300000 : Nat) = 1 then 0 else e.val; rw [if_neg (by decide)])
theorem kW32_at (e : Fin 3300000) (j : Fin 32) : kW32 x2 (ix2 e j) = val_main_v8 (F := Ideal) x2 (ix1 e) := by
  unfold kW32
  generalize val_main_v8 (F := Ideal) x2 = y
  refine (broadcastInDim_apply _ bcast_S3300000x1_S3300000x32_0_1 _ (ix2 e j) (ix2 e (0 : Fin 1)) (fun a => match a with
    | ⟨0, _⟩ => by show e.val = if (3300000 : Nat) = 1 then 0 else e.val; rw [if_neg (by decide)]
    | ⟨1, _⟩ => by show 0 = if (1 : Nat) = 1 then 0 else j.val; rw [if_pos rfl])).trans ?_
  exact broadcastInDim_apply _ bcast_S3300000_S3300000x1_0 y (ix2 e (0 : Fin 1)) (ix1 e) (fun a => match a with
    | ⟨0, _⟩ => by show e.val = if (3300000 : Nat) = 1 then 0 else e.val; rw [if_neg (by decide)])

/-! ## Layer 1 -/

/-- The kernel's first aggregate times d(row) is the reference's first aggregate. -/
theorem agg1_eq (i : S100000x20.Idx) :
    kAgg1 x0 x1 x2 x3 i * dOf x1 x2 (i 0) = val_main_v45 (F := Ideal) x0 x1 x2 x3 i := by
  refine layer x1 x2 gather_S100000x20_S3300000x1_S3300000x20_1_0_n_n_0_1_120.wf
    scatter_S100000x20_S3300000x1_S3300000x20_1_0_0_1.wf
    (scaledProduct x0 x3 (kD x1 x2)) (val_main_v32 (F := Ideal) x0 x3) (fun r j => ?_)
    (kW20 x2) (val_main_v41 (F := Ideal) x1 x2) (fun e j => ?_) (fun e j => ?_)
    (broadcastInDim S100000x20 ![] bcast_S_S100000x20 (constant (F := Ideal) S_ .f32 0x00000000#32)) (fun i => ?_) i
  · -- the source-scaled product at (r, j)
    unfold scaledProduct
    rw [kD_at, val_main_v32_apply]
    refine congrArg (· * dOf x1 x2 r) (Finset.sum_congr rfl fun k _ => ?_)
    refine congrArg₂ (· * ·) (congrArg x0 (funext fun a => Fin.ext (by match a with | ⟨0, _⟩ => rfl | ⟨1, _⟩ => rfl)))
      (congrArg x3 (funext fun a => Fin.ext (by match a with | ⟨0, _⟩ => rfl | ⟨1, _⟩ => rfl)))
  · -- the weights along the columns
    exact kW20_at x2 e j
  · -- the normalisation along the columns
    rw [val_main_v41_apply, val_main_v40_apply]
    exact congrArg (val_main_v31 (F := Ideal) x1 x2) (funext fun a => Fin.ext (by match a with | ⟨0, _⟩ => rfl))
  · -- the zero table
    rw [broadcastInDim_apply _ bcast_S_S100000x20 _ i ix0 (fun a => a.elim0)]
    exact Ideal.ofBits_zero_f32

/-! ## Between the layers -/

/-- The first layer's output entries agree: the bias and the clamp at 0 are the same operations on both sides. -/
theorem relu1_eq (n : Fin 100000) (k : Fin 20) :
    max (kAgg1 x0 x1 x2 x3 (ix2 n k) * kD x1 x2 (ix2 n (0 : Fin 1))
        + (shapeCast S1x20 x4 shapeCasts_S20_S1x20) (ix2 (0 : Fin 1) k)) (Ideal.ofBits .f32 0x00000000#32)
      = val_main_v49 (F := Ideal) x0 x1 x2 x3 x4 (ix2 n k) := by
  have hi : idx_main_v46 (idx_main_v47 (ix2 n k)) = ix1 k := funext fun a => Fin.ext (by match a with | ⟨0, _⟩ => rfl)
  rw [val_main_v49_apply, val_main_v48_apply, val_main_call1_v0_apply, val_main_call1_cst_apply, val_main_v47_apply,
    val_main_v46_apply, hi, kD_at, ← agg1_eq x0 x1 x2 x3 (ix2 n k), shapeCast_a_1a_apply]
  rfl

/-- The second layer's table: the kernel's is the reference's product times d(row). -/
theorem kH_at (r : Fin 100000) (j : Fin 32) :
    kH x0 x1 x2 x3 x4 x5 (ix2 r j) = val_main_v50 (F := Ideal) x0 x1 x2 x3 x4 x5 (ix2 r j) * dOf x1 x2 r := by
  unfold kH reluProduct
  rw [kD_at, val_main_v50_apply]
  refine congrArg (· * dOf x1 x2 r) (Finset.sum_congr rfl fun k _ => ?_)
  have h1 : lidx_main_v50 (ix2 r j) k = ix2 r k := funext fun a => Fin.ext (by match a with | ⟨0, _⟩ => rfl | ⟨1, _⟩ => rfl)
  have h2 : ridx_main_v50 (ix2 r j) k = ix2 k j := funext fun a => Fin.ext (by match a with | ⟨0, _⟩ => rfl | ⟨1, _⟩ => rfl)
  rw [h1, h2, ← relu1_eq x0 x1 x2 x3 x4 r k, kD_at]

/-! ## Layer 2 -/

/-- The kernel's second aggregate times d(row) is the reference's second aggregate. -/
theorem agg2_eq (i : S100000x32.Idx) :
    kAgg2 x0 x1 x2 x3 x4 x5 i * dOf x1 x2 (i 0) = val_main_v63 (F := Ideal) x0 x1 x2 x3 x4 x5 i := by
  refine layer x1 x2 gather_S100000x32_S3300000x1_S3300000x32_1_0_n_n_0_1_132.wf
    scatter_S100000x32_S3300000x1_S3300000x32_1_0_0_1.wf
    (kH x0 x1 x2 x3 x4 x5) (val_main_v50 (F := Ideal) x0 x1 x2 x3 x4 x5) (fun r j => kH_at x0 x1 x2 x3 x4 x5 r j)
    (kW32 x2) (val_main_v59 (F := Ideal) x1 x2) (fun e j => ?_) (fun e j => ?_)
    (broadcastInDim S100000x32 ![] bcast_S_S100000x32 (constant (F := Ideal) S_ .f32 0x00000000#32)) (fun i => ?_) i
  · exact kW32_at x2 e j
  · rw [val_main_v59_apply, val_main_v58_apply]
    exact congrArg (val_main_v31 (F := Ideal) x1 x2) (funext fun a => Fin.ext (by match a with | ⟨0, _⟩ => rfl))
  · rw [broadcastInDim_apply _ bcast_S_S100000x32 _ i ix0 (fun a => a.elim0)]
    exact Ideal.ofBits_zero_f32

/-- The second layer's output entries agree. -/
theorem relu2_eq (n : Fin 100000) (j : Fin 32) :
    clampedRow (kAgg2 x0 x1 x2 x3 x4 x5) (kD x1 x2) (shapeCast S1x32 x6 shapeCasts_S32_S1x32) n j
      = val_main_v67 (F := Ideal) x0 x1 x2 x3 x4 x5 x6 (ix2 n j) := by
  have hi : idx_main_v64 (idx_main_v65 (ix2 n j)) = ix1 j := funext fun a => Fin.ext (by match a with | ⟨0, _⟩ => rfl)
  unfold clampedRow
  rw [val_main_v67_apply, val_main_v66_apply, val_main_call2_v0_apply, val_main_call2_cst_apply, val_main_v65_apply,
    val_main_v64_apply, hi, kD_at, ← agg2_eq x0 x1 x2 x3 x4 x5 (ix2 n j), shapeCast_a_1a_apply]
  rfl

/-! ## The log-softmax -/

/-- The reference's row maximum: max(-∞, fold of max from -∞) is the fold. -/
theorem rowMax_eq (n : Fin 100000) :
    val_main_call3_v2 (F := Ideal) x0 x1 x2 x3 x4 x5 x6 (ix1 n)
      = (Finset.univ : Finset (Fin 32)).fold max (Ideal.ofBits .f32 0xFF800000#32)
          (fun j => val_main_v67 (F := Ideal) x0 x1 x2 x3 x4 x5 x6 (ix2 n j)) := by
  have hb : Ideal.ofBits .f32 0xFF800000#32 = (⊥ : EReal) := by simp [Ideal.ofBits, Ideal.ieee]
  have hred : val_main_call3_v0 (F := Ideal) x0 x1 x2 x3 x4 x5 x6 (ix1 n)
      = (Finset.univ : Finset (Fin 32)).fold max (Ideal.ofBits .f32 0xFF800000#32)
          (fun j => val_main_v67 (F := Ideal) x0 x1 x2 x3 x4 x5 x6 (ix2 n j)) := by
    unfold val_main_call3_v0
    exact hostRowMax_apply _ _ Cert.ReferenceIdeal.Gen.reducesTo_S100000x32_S100000_d1 (by decide) Cert.ReferenceIdeal.Gen.h_S_ n
  rw [val_main_call3_v2_apply, val_main_call3_v1_apply, val_main_call3_cst_0_apply, hred]
  show max (Ideal.ofBits .f32 0xFF800000#32) (Finset.fold max (Ideal.ofBits .f32 0xFF800000#32) _ Finset.univ) = _
  rw [hb, max_eq_right bot_le]

/-- THE RESULTS AGREE: the kernel's function of the arguments is the reference's last stage. -/
theorem out_eq : kOut x0 x1 x2 x3 x4 x5 x6 = val_main_v68 (F := Ideal) x0 x1 x2 x3 x4 x5 x6 := by
  funext i
  obtain ⟨n, q, rfl⟩ : ∃ (n : Fin 100000) (q : Fin 32), i = ix2 n q := ⟨i 0, i 1, eq_ix2 i⟩
  have hrow : clampedRow (kAgg2 x0 x1 x2 x3 x4 x5) (kD x1 x2) (shapeCast S1x32 x6 shapeCasts_S32_S1x32) n
      = fun j => val_main_v67 (F := Ideal) x0 x1 x2 x3 x4 x5 x6 (ix2 n j) := funext fun j => relu2_eq x0 x1 x2 x3 x4 x5 x6 n j
  have h4 : ∀ j : Fin 32, val_main_call3_v4 (F := Ideal) x0 x1 x2 x3 x4 x5 x6 (ix2 n j)
      = (Finset.univ : Finset (Fin 32)).fold max (Ideal.ofBits .f32 0xFF800000#32)
          (fun j => val_main_v67 (F := Ideal) x0 x1 x2 x3 x4 x5 x6 (ix2 n j)) := fun j => by
    rw [val_main_call3_v4_apply, val_main_call3_v3_apply,
      show idx_main_call3_v3 (idx_main_call3_v4 (ix2 n j)) = ix1 n from funext fun a => Fin.ext (by match a with | ⟨0, _⟩ => rfl)]
    exact rowMax_eq x0 x1 x2 x3 x4 x5 x6 n
  have hrow' : clampedRow (kAgg2 x0 x1 x2 x3 x4 x5) (kD x1 x2) (shapeCast S1x32 x6 shapeCasts_S32_S1x32) ((ix2 n q) 0)
      = fun j => val_main_v67 (F := Ideal) x0 x1 x2 x3 x4 x5 x6 (ix2 n j) := hrow
  unfold kOut scaledLogSoftmax
  rw [hrow']
  unfold logSoftmaxOf
  rw [val_main_v68_apply, val_main_call3_v5_apply, h4 q, val_main_call3_v10_apply, val_main_call3_v9_apply,
    val_main_call3_v8_apply,
    show idx_main_call3_v8 (idx_main_call3_v10 (ix2 n q)) = ix1 n from funext fun a => Fin.ext (by match a with | ⟨0, _⟩ => rfl),
    val_main_call3_v7_apply, val_main_call3_cst_1_apply]
  rw [Ideal.subf_def, Ideal.subf_def, Ideal.hostUnary_log_def, Ideal.ofBits_def, Ideal.ofBits_zero_f32, zero_add]
  refine congrArg (fun s => (val_main_v67 (F := Ideal) x0 x1 x2 x3 x4 x5 x6 (ix2 n q)
      - Finset.fold max (Ideal.ofBits .f32 0xFF800000#32) (fun j => val_main_v67 (F := Ideal) x0 x1 x2 x3 x4 x5 x6 (ix2 n j)) Finset.univ)
      - Ideal.log s) ?_
  refine Finset.sum_congr rfl fun k _ => ?_
  rw [show idx_main_call3_v7 (ix1 n) k = ix2 n k from funext fun a => Fin.ext (by match a with | ⟨0, _⟩ => rfl | ⟨1, _⟩ => rfl),
    val_main_call3_v6_apply, val_main_call3_v5_apply, h4 k, Ideal.hostUnary_exp_def, Ideal.subf_def]

end Cert.Bridge

end
-- ==== Proof.RefFold.lean ====
/-
  The reference program's run, read back through its stage functions.

  The reference program is a line of 103 host operations run in order; `after l V` is what the buffers hold once the
  line `l` has run from contents `V`: each operation rewrites the buffer it writes and leaves the rest. Running a
  concatenation of two lines is running the first and then the second from what the first left (`after_append`). The line is
  cut into five consecutive stretches, and for each stretch the contents it leaves in the buffers that later stretches read
  are stated from what those buffers held before it:
    operations  1–22  leave main_v3, main_v6, main_v8, main_v15 at their stage functions of the contents of arguments 1 and 2;
    operations 23–42  leave main_v31 at its stage function, from main_v3, main_v6, main_v8, main_v15;
    operations 43–62  leave main_v48 at its stage function, from arguments 0, 3, 4 and main_v3, main_v6, main_v31;
    operations 63–85  leave main_v66 at its stage function, from main_v48, arguments 5, 6 and main_v3, main_v6, main_v31;
    operations 86–103 leave main_v68 at its stage function, from main_v66;
  and a buffer that a stretch does not write keeps its contents through it. Within one stretch each operation's result at its
  own buffer is its function of its operands' contents, and any other buffer holds what it held; the stage functions are by
  definition these same functions composed in program order, so each equation holds by unfolding definitions (contents moved
  to a typed reference's buffer type and back are the contents: `ofBuf_toBuf`). Chaining the five stretches gives
  `fold_result`: after the whole line the result buffer holds `val_main_v68` of the seven arguments' initial contents.
  `run_ref` is the program's run stated with that value: every weakly fair execution terminates with the result buffer at
  `val_main_v68` of the arguments' launch contents and the arguments unchanged.
-/
import proofs.«160353_j23304492548303_2_alg».proof.Proof.RefRunP
import proofs.«160353_j23304492548303_2_alg».proof.Proof.RefReadP

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The five consecutive stretches of the program's operations. -/
abbrev s1 : List (HloOp τ sig (Elt F)) := (ops (F := F)).take 22
abbrev r1 : List (HloOp τ sig (Elt F)) := (ops (F := F)).drop 22
abbrev s2 : List (HloOp τ sig (Elt F)) := (r1 (F := F)).take 20
abbrev r2 : List (HloOp τ sig (Elt F)) := (r1 (F := F)).drop 20
abbrev s3 : List (HloOp τ sig (Elt F)) := (r2 (F := F)).take 20
abbrev r3 : List (HloOp τ sig (Elt F)) := (r2 (F := F)).drop 20
abbrev s4 : List (HloOp τ sig (Elt F)) := (r3 (F := F)).take 23
abbrev s5 : List (HloOp τ sig (Elt F)) := (r3 (F := F)).drop 23

theorem ops_split : ops (F := F) = s1 ++ (s2 ++ (s3 ++ (s4 ++ s5))) := by
  simp only [s1, s2, s3, s4, s5, r1, r2, r3, List.take_append_drop]

set_option maxHeartbeats 8000000 in
theorem stretch1 (V : Valuation τ sig (Elt F)) :
    after s1 V (Proc.devRef .tc main_v3) = val_main_v3 (F := F) (V (Proc.devRef .tc main_arg1))
    ∧ after s1 V (Proc.devRef .tc main_v6) = val_main_v6 (F := F) (V (Proc.devRef .tc main_arg1))
    ∧ after s1 V (Proc.devRef .tc main_v8) = val_main_v8 (F := F) (V (Proc.devRef .tc main_arg2))
    ∧ after s1 V (Proc.devRef .tc main_v15) = val_main_v15 (F := F) (V (Proc.devRef .tc main_arg1)) (V (Proc.devRef .tc main_arg2))
    ∧ after s1 V (Proc.devRef .tc main_arg0) = V (Proc.devRef .tc main_arg0)
    ∧ after s1 V (Proc.devRef .tc main_arg3) = V (Proc.devRef .tc main_arg3)
    ∧ after s1 V (Proc.devRef .tc main_arg4) = V (Proc.devRef .tc main_arg4)
    ∧ after s1 V (Proc.devRef .tc main_arg5) = V (Proc.devRef .tc main_arg5)
    ∧ after s1 V (Proc.devRef .tc main_arg6) = V (Proc.devRef .tc main_arg6) := by
  simp only [s1, s2, s3, s4, s5, r1, r2, r3, ops, List.take_succ_cons, List.take_zero, List.drop_succ_cons, List.drop_zero]
  refine ⟨?_, ?_, ?_, ?_, ?_, ?_, ?_, ?_, ?_⟩
  · after_results; rfl
  · after_results; rfl
  · after_results; rfl
  · after_results; rfl
  all_goals after_results

/-- Contents moved to a typed reference's buffer type and back are the contents. -/
theorem ofBuf_toBuf {Val : EltTy → Type} {T : BufTy} (x : TRef sig T) (v : T.Contents Val) : x.ofBuf (x.toBuf v) = v := by
  obtain ⟨r, rfl, _, _⟩ := x
  rfl

set_option maxHeartbeats 8000000 in
theorem stretch2 (x1 : (⟨S2x3200000, .i32⟩ : BufTy).Contents (Elt F)) (x2 : (⟨S3200000, .f32⟩ : BufTy).Contents (Elt F)) (W : Valuation τ sig (Elt F))
    (h3 : W (Proc.devRef .tc main_v3) = val_main_v3 (F := F) x1) (h6 : W (Proc.devRef .tc main_v6) = val_main_v6 (F := F) x1)
    (h8 : W (Proc.devRef .tc main_v8) = val_main_v8 (F := F) x2) (h15 : W (Proc.devRef .tc main_v15) = val_main_v15 (F := F) x1 x2) :
    after s2 W (Proc.devRef .tc main_v31) = val_main_v31 (F := F) x1 x2
    ∧ after s2 W (Proc.devRef .tc main_v3) = W (Proc.devRef .tc main_v3)
    ∧ after s2 W (Proc.devRef .tc main_v6) = W (Proc.devRef .tc main_v6)
    ∧ after s2 W (Proc.devRef .tc main_arg0) = W (Proc.devRef .tc main_arg0)
    ∧ after s2 W (Proc.devRef .tc main_arg3) = W (Proc.devRef .tc main_arg3)
    ∧ after s2 W (Proc.devRef .tc main_arg4) = W (Proc.devRef .tc main_arg4)
    ∧ after s2 W (Proc.devRef .tc main_arg5) = W (Proc.devRef .tc main_arg5)
    ∧ after s2 W (Proc.devRef .tc main_arg6) = W (Proc.devRef .tc main_arg6) := by
  simp only [s1, s2, s3, s4, s5, r1, r2, r3, ops, List.take_succ_cons, List.take_zero, List.drop_succ_cons, List.drop_zero]
  refine ⟨?_, ?_, ?_, ?_, ?_, ?_, ?_, ?_⟩
  · after_results; rw [h3, h6, h8, h15]; rfl
  all_goals after_results

set_option maxHeartbeats 8000000 in
theorem stretch3 (x0 : (⟨S100000x128, .f32⟩ : BufTy).Contents (Elt F)) (x1 : (⟨S2x3200000, .i32⟩ : BufTy).Contents (Elt F)) (x2 : (⟨S3200000, .f32⟩ : BufTy).Contents (Elt F)) (x3 : (⟨S128x20, .f32⟩ : BufTy).Contents (Elt F)) (x4 : (⟨S20, .f32⟩ : BufTy).Contents (Elt F)) (W : Valuation τ sig (Elt F))
    (h0 : W (Proc.devRef .tc main_arg0) = x0) (ha3 : W (Proc.devRef .tc main_arg3) = x3) (ha4 : W (Proc.devRef .tc main_arg4) = x4)
    (h3 : W (Proc.devRef .tc main_v3) = val_main_v3 (F := F) x1) (h6 : W (Proc.devRef .tc main_v6) = val_main_v6 (F := F) x1)
    (h31 : W (Proc.devRef .tc main_v31) = val_main_v31 (F := F) x1 x2) :
    after s3 W (Proc.devRef .tc main_v48) = val_main_v48 (F := F) x0 x1 x2 x3 x4
    ∧ after s3 W (Proc.devRef .tc main_v3) = W (Proc.devRef .tc main_v3)
    ∧ after s3 W (Proc.devRef .tc main_v6) = W (Proc.devRef .tc main_v6)
    ∧ after s3 W (Proc.devRef .tc main_v31) = W (Proc.devRef .tc main_v31)
    ∧ after s3 W (Proc.devRef .tc main_arg5) = W (Proc.devRef .tc main_arg5)
    ∧ after s3 W (Proc.devRef .tc main_arg6) = W (Proc.devRef .tc main_arg6) := by
  simp only [s1, s2, s3, s4, s5, r1, r2, r3, ops, List.take_succ_cons, List.take_zero, List.drop_succ_cons, List.drop_zero]
  refine ⟨?_, ?_, ?_, ?_, ?_, ?_⟩
  · after_results; rw [h0, ha3, ha4, h3, h6, h31]; rfl
  all_goals after_results

set_option maxHeartbeats 8000000 in
theorem stretch4 (x0 : (⟨S100000x128, .f32⟩ : BufTy).Contents (Elt F)) (x1 : (⟨S2x3200000, .i32⟩ : BufTy).Contents (Elt F)) (x2 : (⟨S3200000, .f32⟩ : BufTy).Contents (Elt F)) (x3 : (⟨S128x20, .f32⟩ : BufTy).Contents (Elt F)) (x4 : (⟨S20, .f32⟩ : BufTy).Contents (Elt F)) (x5 : (⟨S20x32, .f32⟩ : BufTy).Contents (Elt F)) (x6 : (⟨S32, .f32⟩ : BufTy).Contents (Elt F)) (W : Valuation τ sig (Elt F))
    (h48 : W (Proc.devRef .tc main_v48) = val_main_v48 (F := F) x0 x1 x2 x3 x4)
    (ha5 : W (Proc.devRef .tc main_arg5) = x5) (ha6 : W (Proc.devRef .tc main_arg6) = x6)
    (h3 : W (Proc.devRef .tc main_v3) = val_main_v3 (F := F) x1) (h6 : W (Proc.devRef .tc main_v6) = val_main_v6 (F := F) x1)
    (h31 : W (Proc.devRef .tc main_v31) = val_main_v31 (F := F) x1 x2) :
    after s4 W (Proc.devRef .tc main_v66) = val_main_v66 (F := F) x0 x1 x2 x3 x4 x5 x6 := by
  simp only [s1, s2, s3, s4, s5, r1, r2, r3, ops, List.take_succ_cons, List.take_zero, List.drop_succ_cons, List.drop_zero]
  after_results; rw [h48, ha5, ha6, h3, h6, h31]; repeat rw [ofBuf_toBuf]
  rfl

set_option maxHeartbeats 8000000 in
theorem stretch5 (x0 : (⟨S100000x128, .f32⟩ : BufTy).Contents (Elt F)) (x1 : (⟨S2x3200000, .i32⟩ : BufTy).Contents (Elt F)) (x2 : (⟨S3200000, .f32⟩ : BufTy).Contents (Elt F)) (x3 : (⟨S128x20, .f32⟩ : BufTy).Contents (Elt F)) (x4 : (⟨S20, .f32⟩ : BufTy).Contents (Elt F)) (x5 : (⟨S20x32, .f32⟩ : BufTy).Contents (Elt F)) (x6 : (⟨S32, .f32⟩ : BufTy).Contents (Elt F)) (W : Valuation τ sig (Elt F))
    (h66 : W (Proc.devRef .tc main_v66) = val_main_v66 (F := F) x0 x1 x2 x3 x4 x5 x6) :
    after s5 W (Proc.devRef .tc main_v68) = val_main_v68 (F := F) x0 x1 x2 x3 x4 x5 x6 := by
  simp only [s1, s2, s3, s4, s5, r1, r2, r3, ops, List.take_succ_cons, List.take_zero, List.drop_succ_cons, List.drop_zero]
  after_results; rw [h66]; repeat rw [ofBuf_toBuf]
  rfl

/-- The contents of the result buffer after the whole line is the last stage function of the arguments' contents. -/
theorem fold_result {F : FTy → Type} [FloatOps F] (V : Valuation τ sig (Elt F)) :
    StableHlo.after (Cert.ReferenceIdeal.ValueP.ops (F := F)) V (Proc.devRef .tc main_v68)
      = Cert.ReferenceIdeal.ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, after_append, after_append, after_append, after_append]
  obtain ⟨a3, a6, a8, a15, a_0, a_3, a_4, a_5, a_6⟩ := stretch1 (F := F) V
  generalize after s1 V = W1 at *
  obtain ⟨b31, b3, b6, b_0, b_3, b_4, b_5, b_6⟩ := stretch2 (F := F) _ _ W1 a3 a6 a8 a15
  generalize after s2 W1 = W2 at *
  obtain ⟨c48, c3, c6, c31, c_5, c_6⟩ := stretch3 (F := F) _ _ _ _ _ W2 (b_0.trans a_0) (b_3.trans a_3) (b_4.trans a_4)
    (b3.trans a3) (b6.trans a6) b31
  generalize after s3 W2 = W3 at *
  have d66 := stretch4 (F := F) _ _ _ _ _ _ _ W3 c48 (c_5.trans (b_5.trans a_5)) (c_6.trans (b_6.trans a_6))
    (c3.trans (b3.trans a3)) (c6.trans (b6.trans a6)) (c31.trans b31)
  generalize after s4 W3 = W4 at *
  exact stretch5 (F := F) _ _ _ _ _ _ _ W4 d66

/-- On every device, from any memory with zero counters: every weakly fair execution of the program terminates with the
    result buffer at the last stage function of the arguments' launch contents, and the arguments unchanged. -/
theorem run_ref {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = Cert.ReferenceIdeal.ReadP.val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (fold_result (F := F) (StableHlo.launchContents m c)), (h c).2⟩)
    (Cert.ReferenceIdeal.ValueP.run_fold (F := F) m ρ)

end Cert.ReferenceIdeal.Hand

end
-- ==== Proof.lean ====
/-
  The certificate of the two-layer graph convolution kernel against its reference, on the extended reals.

  Both programs build the same self-looped edge list, weights, degrees and the column d = where(deg > 0, rsqrt deg, 0).
  The reference normalises every edge by d(src) · w · d(dst) before it scatters; the kernel scales the node table by d
  before the gather (in its first two regions) and the scattered aggregate by d after it (in the regions that follow), so
  that no per-edge normalisation is formed.  The two agree because a product can be re-bracketed and because d(row),
  a non-negative real number, may be taken out of the sum that a scatter-add forms for that row; the matrix products,
  the biases, the clamps at 0 and the row-wise log-softmax are the same on both sides (Bridge).
  The frames of the two kernels are the generated ones.  The idealized kernel's run names its result at the last
  boundary of the program, and that result is read region by region and stretch by stretch (KernelRun, Region0-2,
  KernelValue); the reference's run is the fold of its operations, read stretch by stretch (RefFold).  No conjunct needs
  the precondition.
-/
import proofs.«160353_j23304492548303_2_alg».proof.Defs
import proofs.«160353_j23304492548303_2_alg».proof.Proof.Gen.Kernel
import proofs.«160353_j23304492548303_2_alg».proof.Proof.Gen.Kernel.Skeleton
import proofs.«160353_j23304492548303_2_alg».proof.Proof.Gen.Kernel.Launch
import proofs.«160353_j23304492548303_2_alg».proof.Proof.Gen.Kernel.Points
import proofs.«160353_j23304492548303_2_alg».proof.Proof.Gen.Kernel.Frame
import proofs.«160353_j23304492548303_2_alg».proof.Proof.Gen.KernelIdeal
import proofs.«160353_j23304492548303_2_alg».proof.Proof.Gen.KernelIdeal.Skeleton
import proofs.«160353_j23304492548303_2_alg».proof.Proof.Gen.KernelIdeal.Launch
import proofs.«160353_j23304492548303_2_alg».proof.Proof.Gen.KernelIdeal.Points
import proofs.«160353_j23304492548303_2_alg».proof.Proof.Gen.KernelIdeal.Frame
import proofs.«160353_j23304492548303_2_alg».proof.Proof.Gen.ReferenceIdeal
import proofs.«160353_j23304492548303_2_alg».proof.Proof.Gen.Pre_finite_inputs
import proofs.«160353_j23304492548303_2_alg».proof.Proof.KernelRun
import proofs.«160353_j23304492548303_2_alg».proof.Proof.KernelValue
import proofs.«160353_j23304492548303_2_alg».proof.Proof.Bridge
import proofs.«160353_j23304492548303_2_alg».proof.Proof.RefFold
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Hand.run_ref (F := Ideal) m ρ)

/-- The idealization rewrote nothing. -/
theorem preserves : Cert.preserves_Kernel_KernelIdeal := trivial

/-- Both idealized programs end, from memories agreeing on the arguments, with the same result: the kernel's function of
    the arguments, which is the reference's last stage. -/
theorem algebraic : Cert.algebraic_KernelIdeal_ReferenceIdeal := by
  intro m ρ m' ρ' _ hagree
  refine ⟨fun c => Cert.KernelIdeal.Hand.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.W8_v47 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run_ref (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.Bridge.out_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
